-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S1024x1024 : Shape := ⟨2, ![1024, 1024]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S64x1024x256 .f32) (main_arg1 : FVec F S1024x1024 .f32) (main_arg2 : FVec F S1024x1024 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S64x1024x256 : Shape := ⟨3, ![64, 1024, 256]⟩
abbrev S1024x1024 : Shape := ⟨2, ![1024, 1024]⟩
abbrev S64x8x128 : Shape := ⟨3, ![64, 8, 128]⟩
abbrev S1x1024x256 : Shape := ⟨3, ![1, 1024, 256]⟩
abbrev S1x8x128 : Shape := ⟨3, ![1, 8, 128]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩
abbrev S1x1024 : Shape := ⟨2, ![1, 1024]⟩
abbrev S1x1 : Shape := ⟨2, ![1, 1]⟩
abbrev S128x256 : Shape := ⟨2, ![128, 256]⟩
abbrev S128x1024 : Shape := ⟨2, ![128, 1024]⟩
abbrev S128x1 : Shape := ⟨2, ![128, 1]⟩
abbrev S128 : Shape := ⟨1, ![128]⟩
abbrev S1 : Shape := ⟨1, ![1]⟩
abbrev S8x128 : Shape := ⟨2, ![8, 128]⟩
abbrev S64x1x1 : Shape := ⟨3, ![64, 1, 1]⟩
abbrev S64 : Shape := ⟨1, ![64]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S64x1024x256, .f32⟩
  | .hbm, ⟨1, _⟩ => ⟨S1024x1024, .f32⟩
  | .hbm, ⟨2, _⟩ => ⟨S1024x1024, .f32⟩
  | .hbm, ⟨3, _⟩ => ⟨S64x8x128, .f32⟩
  | .hbm, ⟨4, _⟩ => ⟨S8x128, .f32⟩
  | .hbm, ⟨5, _⟩ => ⟨S64x1x1, .f32⟩
  | .hbm, ⟨6, _⟩ => ⟨S64, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1024x1024, .f32⟩
  | .local _ .vmem, ⟨3, _⟩ => ⟨S1024x1024, .f32⟩
  | .local _ .vmem, ⟨4, _⟩ => ⟨S1x8x128, .f32⟩
  | .local _ .vmem, ⟨5, _⟩ => ⟨S1x8x128, .f32⟩
  | .local _ .vmem, ⟨6, _⟩ => ⟨S128x1024, .f32⟩
  | .local _ .vmem, ⟨7, _⟩ => ⟨S128x1024, .f32⟩
  | .local _ .vmem, ⟨8, _⟩ => ⟨S8x128, .f32⟩
  | .local _ .vmem, ⟨9, _⟩ => ⟨S1x1, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_7 : BitVec 32 := 0#32
  let v25 : BitVec 1 := Scalar.cmpi .ne v24 c0_i32_7
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  transposes_S1024x256_p1_0_S256x1024 : S1024x256.Transposes [1, 0] S256x1024
  reduces_S1024x256_S1024 : S1024x256.Reduces [1] S1024
  shapeCasts_S1024_S1024x1 : S1024.ShapeCasts S1024x1
  transposes_S1024x1_p1_0_S1x1024 : S1024x1.Transposes [1, 0] S1x1024
  slices_S1024x256_o0_0_S128x256 : S1024x256.Slices ![0, 0] S128x256
  slices_S1024x1_o0_0_S128x1 : S1024x1.Slices ![0, 0] S128x1
  broadcasts_S128x1_S128x1024 : S128x1.Broadcasts S128x1024
  broadcasts_S1x1024_S128x1024 : S1x1024.Broadcasts S128x1024
  iota_S128x1024_d0_w32 : S128x1024.Iotas .tc 32 [0]
  iota_S128x1024_d1_w32 : S128x1024.Iotas .tc 32 [1]
  natLt_1_32 : 1 < 32
  inb_S1024x1024_S128x1024_0_0 : ∀ a, (![0, 0] : Fin 2 → Nat) a + S128x1024.size a ≤ S1024x1024.size a
  h_S128x1024 : 0 < S128x1024.numel
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  slices_S1024x256_o128_0_S128x256 : S1024x256.Slices ![128, 0] S128x256
  slices_S1024x1_o128_0_S128x1 : S1024x1.Slices ![128, 0] S128x1
  inb_S1024x1024_S128x1024_128_0 : ∀ a, (![128, 0] : Fin 2 → Nat) a + S128x1024.size a ≤ S1024x1024.size a
  slices_S1024x256_o256_0_S128x256 : S1024x256.Slices ![256, 0] S128x256
  slices_S1024x1_o256_0_S128x1 : S1024x1.Slices ![256, 0] S128x1
  inb_S1024x1024_S128x1024_256_0 : ∀ a, (![256, 0] : Fin 2 → Nat) a + S128x1024.size a ≤ S1024x1024.size a
  slices_S1024x256_o384_0_S128x256 : S1024x256.Slices ![384, 0] S128x256
  slices_S1024x1_o384_0_S128x1 : S1024x1.Slices ![384, 0] S128x1
  inb_S1024x1024_S128x1024_384_0 : ∀ a, (![384, 0] : Fin 2 → Nat) a + S128x1024.size a ≤ S1024x1024.size a
  slices_S1024x256_o512_0_S128x256 : S1024x256.Slices ![512, 0] S128x256
  slices_S1024x1_o512_0_S128x1 : S1024x1.Slices ![512, 0] S128x1
  inb_S1024x1024_S128x1024_512_0 : ∀ a, (![512, 0] : Fin 2 → Nat) a + S128x1024.size a ≤ S1024x1024.size a
  slices_S1024x256_o640_0_S128x256 : S1024x256.Slices ![640, 0] S128x256
  slices_S1024x1_o640_0_S128x1 : S1024x1.Slices ![640, 0] S128x1
  inb_S1024x1024_S128x1024_640_0 : ∀ a, (![640, 0] : Fin 2 → Nat) a + S128x1024.size a ≤ S1024x1024.size a
  slices_S1024x256_o768_0_S128x256 : S1024x256.Slices ![768, 0] S128x256
  slices_S1024x1_o768_0_S128x1 : S1024x1.Slices ![768, 0] S128x1
  inb_S1024x1024_S128x1024_768_0 : ∀ a, (![768, 0] : Fin 2 → Nat) a + S128x1024.size a ≤ S1024x1024.size a
  slices_S1024x256_o896_0_S128x256 : S1024x256.Slices ![896, 0] S128x256
  slices_S1024x1_o896_0_S128x1 : S1024x1.Slices ![896, 0] S128x1
  inb_S1024x1024_S128x1024_896_0 : ∀ a, (![896, 0] : Fin 2 → Nat) a + S128x1024.size a ≤ S1024x1024.size a
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x1_S1x1_0_0 : ∀ a, (![0, 0] : Fin 2 → Nat) a + S1x1.size a ≤ S1x1.size a
  h_S1x1 : 0 < S1x1.numel
  inb_S128x1024_S128x1024_0_0 : ∀ a, (![0, 0] : Fin 2 → Nat) a + S128x1024.size a ≤ S128x1024.size a
  inb_S8x128_S8x128_0_0 : ∀ a, (![0, 0] : Fin 2 → Nat) a + S8x128.size a ≤ S8x128.size a
  h_S8x128 : 0 < S8x128.numel
  slices_S64x8x128_S64x1x1_0_0_0 : S64x8x128.Slices ![0, 0, 0] S64x1x1
  shapeCasts_S64x1x1_S64 : S64x1x1.ShapeCasts S64
  slices_S8x128_S1x1_0_0 : S8x128.Slices ![0, 0] S1x1
  shapeCasts_S1x1_S_ : S1x1.ShapeCasts S_
  bcast_S_S64 : S_.BroadcastsInDim S64 (![] : Fin 0 → Fin S64.rank)
  reducesTo_S64_S_d0 : S64.ReducesTo [0] S_
  h_S_ : 0 < S_.numel
  dot_S128x256_S256x1024_S128x1024_1_0_0_1_n_n_wf : DotDims.WF S128x256 S256x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)

variable [Facts₀]

def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S64x1024x256 : Shape := ⟨3, ![64, 1024, 256]⟩
abbrev S1024x1024 : Shape := ⟨2, ![1024, 1024]⟩
abbrev S_ : Shape := ⟨0, ![]⟩
abbrev S64x1024 : Shape := ⟨2, ![64, 1024]⟩
abbrev S64x1024x1024 : Shape := ⟨3, ![64, 1024, 1024]⟩
abbrev S64x1024x1 : Shape := ⟨3, ![64, 1024, 1]⟩
abbrev S64x1x1024 : Shape := ⟨3, ![64, 1, 1024]⟩
abbrev S1x1024x1024 : Shape := ⟨3, ![1, 1024, 1024]⟩
abbrev S64 : Shape := ⟨1, ![64]⟩

abbrev nBuf : Space → Nat
  | .hbm => 66
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S1024x1024, .f32⟩
  | .hbm, ⟨2, _⟩ => ⟨S1024x1024, .f32⟩
  | .hbm, ⟨3, _⟩ => ⟨S1024x1024, .i32⟩
  | .hbm, ⟨4, _⟩ => ⟨S1024x1024, .i32⟩
  | .hbm, ⟨5, _⟩ => ⟨S_, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1024x1024, .f32⟩
  | .hbm, ⟨10, _⟩ => ⟨S64x1024x256, .f32⟩
  | .hbm, ⟨11, _⟩ => ⟨S_, .f32⟩
  | .hbm, ⟨12, _⟩ => ⟨S64x1024, .f32⟩
  | .hbm, ⟨13, _⟩ => ⟨S64x1024x1024, .f32⟩
  | .hbm, ⟨14, _⟩ => ⟨S64x1024x1, .f32⟩
  | .hbm, ⟨15, _⟩ => ⟨S64x1x1024, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S64x1024x1024, .f32⟩
  | .hbm, ⟨21, _⟩ => ⟨S64x1024x1024, .f32⟩
  | .hbm, ⟨22, _⟩ => ⟨S64x1024x1024, .f32⟩
  | .hbm, ⟨23, _⟩ => ⟨S_, .f32⟩
  | .hbm, ⟨24, _⟩ => ⟨S64x1024x1024, .f32⟩
  | .hbm, ⟨25, _⟩ => ⟨S64x1024x1024, .f32⟩
  | .hbm, ⟨26, _⟩ => ⟨S1x1024x1024, .f32⟩
  | .hbm, ⟨27, _⟩ => ⟨S64x1024x1024, .f32⟩
  | .hbm, ⟨28, _⟩ => ⟨S64x1024x1024, .f32⟩
  | .hbm, ⟨29, _⟩ => ⟨S64x1024x1024, .f32⟩
  | .hbm, ⟨30, _⟩ => ⟨S_, .f32⟩
  | .hbm, ⟨31, _⟩ => ⟨S64x1024x1024, .f32⟩
  | .hbm, ⟨32, _⟩ => ⟨S64x1024x1024, .f32⟩
  | .hbm, ⟨33, _⟩ => ⟨S64x1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1x1024x1024, .f32⟩
  | .hbm, ⟨38, _⟩ => ⟨S64x1024x1024, .f32⟩
  | .hbm, ⟨39, _⟩ => ⟨S64x1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1x1024x1024, .f32⟩
  | .hbm, ⟨45, _⟩ => ⟨S1x1024x1024, .f32⟩
  | .hbm, ⟨46, _⟩ => ⟨S64x1024x1024, .f32⟩
  | .hbm, ⟨47, _⟩ => ⟨S64x1024x1024, .f32⟩
  | .hbm, ⟨48, _⟩ => ⟨S64x1024x1024, .f32⟩
  | .hbm, ⟨49, _⟩ => ⟨S64x1024x1024, .f32⟩
  | .hbm, ⟨50, _⟩ => ⟨S64x1024x1024, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S_, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S64x1024x256_S64x1024_d2 : S64x1024x256.ReducesTo [2] S64x1024
  h_S_ : 0 < S_.numel
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  bcast_S_S64x1024x1024 : S_.BroadcastsInDim S64x1024x1024 (![] : Fin 0 → Fin S64x1024x1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  reducesTo_S64x1024x1024_S64_d1_2 : S64x1024x1024.ReducesTo [1, 2] S64
  reducesTo_S1024x1024_S_d0_1 : S1024x1024.ReducesTo [0, 1] S_
  bcast_S_S64 : S_.BroadcastsInDim S64 (![] : Fin 0 → Fin S64.rank)
  reducesTo_S64_S_d0 : S64.ReducesTo [0] S_
  dot_S64x1024x256_S64x1024x256_S64x1024x1024_2_2_1_1_0_0_wf : DotDims.WF S64x1024x256 S64x1024x256 S64x1024x1024 [2] [2] [1] [1] [0] [0]

variable [Facts₀]

def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf

class Facts : Prop extends Facts₀ where

variable [Facts]
-- ==== Proof.FrameNumerBits.lean ====
/-
  The first kernel region (one grid point per batch element): for one batch element it reads the element's
  [1024, 256] block of vectors and the whole [1024, 1024] arrays S and W, and stores one [8, 128] block holding a single
  number in every entry. This module is the region's half of the frame argument, at any float instance: the body runs
  to its end on whole staging buffers without faulting, the three input buffers end as they were, and the output's
  buffer ends at the pieces the body stored, which tile it. The region's proof data follow: the arrays as the region
  finds them, after each point every input buffer at its block and the output buffer at what the body left.
-/
import proofs.«154336_j22299470201233_1_alg».proof.Proof.Gen.Kernel.Launch
import proofs.«154336_j22299470201233_1_alg».proof.Proof.Gen.Kernel.Skeleton
import proofs.«154336_j22299470201233_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-- One staging buffer of the output window, through which its contents are stated. -/
abbrev VO0_3 : View sig .tc .vmem S1x8x128 .f32 := (Memref.whole cc0_stg3_0 : Memref sig .tc .vmem S1x8x128 .f32).view

set_option maxHeartbeats 4000000 in
/-- The body on whole staging buffers, the three inputs' at contents `x0 x1 x2` and the output's at anything, runs to
    the continuation holding the inputs' as they were and the output's with the stored pieces written; the pieces are
    what the run finds. -/
noncomputable def kernelRun0 (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) :
    { L3 : List (View.Piece (Elt F) S1x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__numer_kernel i arg1 harg1 arg2 harg2 arg3 harg3 arg4 harg4) K } := by
  refine ⟨?_, fun E K => ?run⟩
  case run =>
    simp only [cc0__numer_kernel_eq_skeleton]; unfold cc0__numer_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The stored pieces tile the output's block, so they cover it. -/
theorem cover0_3 (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) (y : S1x8x128.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S1x8x128.size (by sl_kernel_rfl) y

/-- What the body leaves in the output's staging buffer: its pieces read back. -/
def out0_3 (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) : Vec F S1x8x128 .f32 :=
  VO0_3.read (Elt F) (VO0_3.writes (Elt F) VO0_3.junk (kernelRun0 c i arg1 harg1 arg2 harg2 arg3 harg3 arg4 harg4 x0 x1 x2).1)

section Region
variable (V : (c : Dev nD) → (b : Ref sig .tc) → Buf (Elt F) ((c : Thread nD τ).loc b))

/-- The output's buffer after the body at point `t`, from the point's input blocks. -/
def outAt0 (c : Dev nD) (t : Fin cfg0.N) : Vec F S1x8x128 .f32 :=
  out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
    (iblk0 V c 0 t) (iblk0 V c 1 t) (iblk0 V c 2 t)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- The body at any point: the inputs' buffers hold their blocks, so the run applies; the invariant and the core's dues pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.FrameDenomRunsBits.lean ====
/-
  The second kernel region (eight grid points, one per 128-row strip of W): the body adds the strip's sum of squares of
  W - I onto a one-element scratch that it zeroes at the first point, and at the last point stores the scratch's square
  root into every entry of the [8, 128] output block. Its control has three cases: the first point (zero, then add), a
  middle point (add), the last point (add, then store out). This module decides the two branch conditions over the
  grid, says where the output window is idle, and runs the body once per case on whole buffers, at any float instance:
  the inputs end as they were, and the scratch and (in the last case) the output end at the stored pieces.
-/
import proofs.«154336_j22299470201233_1_alg».proof.Proof.Gen.Kernel.Launch
import proofs.«154336_j22299470201233_1_alg».proof.Proof.Gen.Kernel.Skeleton
import proofs.«154336_j22299470201233_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition (zero the scratch), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The last branch's condition (store the result out), from the grid coordinate. -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-! ## The buffers -/

abbrev VO1_1 : View sig .tc .vmem S8x128 .f32 := (Memref.whole cc1_stg1_0 : Memref sig .tc .vmem S8x128 .f32).view
abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
/-- The scratch operand: a whole scoped buffer of the kernel's own. -/
abbrev scM1_0 : Memref sig .tc .vmem S1x1 .f32 := Memref.whole cc1_scratch0
abbrev VS1_0 : View sig .tc .vmem S1x1 .f32 := scM1_0.view

/-- The class invariant with the scratch operand as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case -/

set_option maxHeartbeats 1000000 in
/-- The first point: the scratch at anything is zeroed, then the strip's sum is added; the output is left untouched. -/
noncomputable def kernelRun1_A (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) :
    { LS0 : List (View.Piece (Elt F) S1x1 .f32) //
      ∀ (xi1 : Vec F S8x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__denom_kernel i arg1 harg1 arg2 harg2 arg3 harg3) K } := by
  refine ⟨?_, fun xi1 E K => ?run⟩
  case run =>
    simp only [cc1__denom_kernel_eq_skeleton]; unfold cc1__denom_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A middle point: the strip's sum is added onto the scratch as the point before left it; the output is left untouched. -/
noncomputable def kernelRun1_B (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) :
    { LS0 : List (View.Piece (Elt F) S1x1 .f32) //
      ∀ (xi1 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__denom_kernel i arg1 harg1 arg2 harg2 arg3 harg3) K } := by
  refine ⟨?_, fun xi1 E K => ?run⟩
  case run =>
    simp only [cc1__denom_kernel_eq_skeleton]; unfold cc1__denom_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- The last point: the strip's sum is added onto the scratch, and the scratch's square root is stored over the whole
    output block. -/
noncomputable def kernelRun1_C (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) :
    Σ' (L1 : List (View.Piece (Elt F) S8x128 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__denom_kernel i arg1 harg1 arg2 harg2 arg3 harg3) K } := by
  refine ⟨?_, ?_, fun E K => ?run⟩
  case run =>
    simp only [cc1__denom_kernel_eq_skeleton]; unfold cc1__denom_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.FrameDenomBits.lean ====
/-
  The second kernel region's half of the frame argument, at any float instance. What the one-element scratch holds
  after each grid point is a recursion over the points: the first point's contents come from that point's strip alone,
  every later point's from its strip and what the point before left. The region's invariant carries the scratch at
  exactly those contents from one point to the next (before the first point it is at anything, and so are the first
  region's staging buffers throughout). The output window is idle, and not written back, at every point but the last,
  where the body stores its whole block.
-/
import proofs.«154336_j22299470201233_1_alg».proof.Proof.FrameDenomRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in the scratch: its pieces read back. -/
def sout1_A_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) : Vec F S1x1 .f32 :=
  VS1_0.read (Elt F) (VS1_0.writes (Elt F) VS1_0.junk (kernelRun1_A c i arg1 harg1 arg2 harg2 arg3 harg3 hc0 hc1 x0).1)
theorem scover1_A_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) (y : S1x1.Idx) :
    ∃ pc ∈ (kernelRun1_A c i arg1 harg1 arg2 harg2 arg3 harg3 hc0 hc1 x0).1, y ∈ pc.1.set :=
  View.cover_of_tiledL (kernelRun1_A c i arg1 harg1 arg2 harg2 arg3 harg3 hc0 hc1 x0).1 S1x1.size (by sl_kernel_rfl) y

/-- What a middle point leaves in the scratch. -/
def sout1_B_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) : Vec F S1x1 .f32 :=
  VS1_0.read (Elt F) (VS1_0.writes (Elt F) VS1_0.junk (kernelRun1_B c i arg1 harg1 arg2 harg2 arg3 harg3 hc0 hc1 x0 xs0).1)
theorem scover1_B_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) (y : S1x1.Idx) :
    ∃ pc ∈ (kernelRun1_B c i arg1 harg1 arg2 harg2 arg3 harg3 hc0 hc1 x0 xs0).1, y ∈ pc.1.set :=
  View.cover_of_tiledL (kernelRun1_B c i arg1 harg1 arg2 harg2 arg3 harg3 hc0 hc1 x0 xs0).1 S1x1.size (by sl_kernel_rfl) y

/-- What the last point leaves in the output's staging buffer and in the scratch. -/
def out1_C_1 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) : Vec F S8x128 .f32 :=
  VO1_1.read (Elt F) (VO1_1.writes (Elt F) VO1_1.junk (kernelRun1_C c i arg1 harg1 arg2 harg2 arg3 harg3 hc0 hc1 x0 xs0).1)
theorem cover1_C_1 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) (y : S8x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S8x128.size (by sl_kernel_rfl) y
def sout1_C_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) : Vec F S1x1 .f32 :=
  VS1_0.read (Elt F) (VS1_0.writes (Elt F) VS1_0.junk (kernelRun1_C c i arg1 harg1 arg2 harg2 arg3 harg3 hc0 hc1 x0 xs0).2.1)
theorem scover1_C_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) (y : S1x1.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S1x1.size (by sl_kernel_rfl) y

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A placeholder for the output's buffer at the points where its window is idle: nothing reads it. -/
def idleOut : Vec F S8x128 .f32 := VO1_1.read (Elt F) VO1_1.junk

/-- THE ACCUMULATION: what the output's staging buffer and the scratch hold after the body at position `n`. -/
def outsAt1 (c : Dev nD) : (n : ℕ) → n < cfg1.N → Vec F S8x128 .f32 × Vec F S1x1 .f32
  | 0, hn => (idleOut, sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩))
  | n + 1, hn =>
    if h1 : n + 1 = 7 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (outsAt1 c n (Nat.lt_of_succ_lt hn)).2)
    else
      (idleOut,
       sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val = 0) (h1 : ¬t.val = 7) :
    outsAt1 V c t.val t.isLt = (idleOut, sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 7) :
    outsAt1 V c t.val t.isLt = (idleOut, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 7) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2,
      sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The scoped buffers no window of this region stages, the first region's staging buffers at anything and the scratch at `X`. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ X)

theorem PhiA1_eq' (c : Dev nD) :
    (Pipeline.ΦA spec1 c : sProp 𝕄) = iprop(restWith c (iprop(∃ d, owns (c : Thread nD τ) scM1_0 fullShare d)) ∗ (∃ r, prngReg c r)) := by
  rw [PhiA1_eq]; rfl

/-- The region invariant before position `n`. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the input's buffer holds its block; the point's position says which case it is in; the invariant
    hands the body the scratch at what the point before left (at anything at the first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  by_cases h0 : t.val = 0
  · have h1 : ¬t.val = 7 := by omega
    rw [Dat.leavesExact_idle (dat1 V c) 1 t (idleAt1_1 t (fun h => h1 ((hcond1_1 t).mp h))) (noFlush1_1 t (fun h => h1 ((hcond1_1 t).mp h)))]
    rw [outsAt1_A V c t h0 h1]
    unfold sout1_A_0; (try dsimp only)
    rw [PhiS_castSucc V c t, PhiS_zero V c _ _ h0, PhiA1_eq']
    unfold restWith
    iintro ⟨⟨⟨Ha, Hb, Hc, Hd, He, Hf, HS0⟩, Hg⟩, Ho, ⟨%d0, H0⟩, ⟨%d1, H1⟩⟩
    iapply ((kernelRun1_A c (grid1.coords t) _ _ _ _ _ _ ((hcond1_0 t).mpr h0) (fun h => h1 ((hcond1_1 t).mp h)) (iblk1 V c 0 t)).2 _ Set.univ _)
    isplitl [H0]; · iexact H0
    isplitl [H1]; · iexact H1
    isplitl [HS0]; · iexact HS0
    iintro ⟨H0, H1, ⟨%es0, HS0⟩⟩
    isplitl [Ha Hb Hc Hd He Hf HS0 Hg]
    · isplitl [Ha Hb Hc Hd He Hf HS0]
      · isplitl [Ha]; · iexact Ha
        isplitl [Hb]; · iexact Hb
        isplitl [Hc]; · iexact Hc
        isplitl [Hd]; · iexact Hd
        isplitl [He]; · iexact He
        isplitl [Hf]; · iexact Hf
        unfold owns; iexists _; isplitr
        swap; · iexact HS0
        ipureintro; exact View.read_writes_of_cover _ _ _ _ _ (scover1_A_0 c _ _ _ _ _ _ _ _ _ _)
      iexact Hg
    isplitl [Ho]; · iexact Ho
    isplitl [H0]; · iexact H0
    iexists _; iexact H1
  · by_cases h1 : t.val = 7
    · rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C_1 sout1_C_0; (try dsimp only)
      rw [PhiS_castSucc V c t, PhiS_pos V c _ _ h0]
      unfold restWith
      iintro ⟨⟨⟨Ha, Hb, Hc, Hd, He, Hf, HS0⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B_0; (try dsimp only)
      rw [PhiS_castSucc V c t, PhiS_pos V c _ _ h0]
      unfold restWith
      iintro ⟨⟨⟨Ha, Hb, Hc, Hd, He, Hf, HS0⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2 _ Set.univ _)
      isplitl [H0]; · iexact H0
      isplitl [H1]; · iexact H1
      isplitl [HS0]; · iexact HS0
      iintro ⟨H0, H1, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B_0 c _ _ _ _ _ _ _ _ _ _ _)
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS V c (Fin.last cfg1.N).val (Nat.le_of_lt_succ (Fin.last cfg1.N).isLt) from rfl, PhiS_pos V c _ _ ht, PhiA1_eq']
  unfold restWith
  iintro ⟨⟨Ha, Hb, Hc, Hd, He, Hf, HS0⟩, Hg⟩
  isplitl [Ha Hb Hc Hd He Hf HS0]
  · isplitl [Ha]; · iexact Ha
    isplitl [Hb]; · iexact Hb
    isplitl [Hc]; · iexact Hc
    isplitl [Hd]; · iexact Hd
    isplitl [He]; · iexact He
    isplitl [Hf]; · iexact Hf
    iexists _; iexact HS0
  iexact Hg

end Region

end Cert.Kernel.Hand

end
-- ==== Proof.FrameRunBits.lean ====
/-
  The whole program's run, at any float instance: the first kernel region, the second, then eleven host operations. The
  buffers' contents at each boundary are a fold from the launch memory: a region leaves its arrays at what its
  write-backs leave and every other buffer as it was, the host stretch leaves the operations' results. Each region is a
  segment entered from "every unscoped buffer whole at the boundary's contents, the generator register at some state,
  nothing owed" and left at the next boundary's; the second region's invariant is the one that carries its scratch. At the
  end every unscoped buffer is read at the last boundary's contents: the three arguments are what they were at launch
  (no operation and no region writes one), and the result is the host operations' term of what the regions left.
-/
import proofs.«154336_j22299470201233_1_alg».proof.Proof.FrameNumerBits
import proofs.«154336_j22299470201233_1_alg».proof.Proof.FrameDenomBits
import proofs.«154336_j22299470201233_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host operations: the end. -/
abbrev W3 : Dev nD → Valuation τ sig (Elt F) := fun c => StableHlo.after hostOps2 (W2 m ρ c)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps2 _ hostOps2_writes (by decide)
    _ = W1 m ρ c (Proc.devRef .tc main_arg2) := (W2_arr m ρ c 0).trans (((dat1 (V1 m ρ) c).arrAt_in 0 rfl _).trans (A_eq1 (V1 m ρ) c 0))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`; its invariant
    starts at the class's and ends giving the class's back. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (A B : sProp 𝕄), iprop(iprop(∃ r, prngReg c r) ∗ A ∗ B) ⊢ iprop(B ∗ ∃ r, prngReg c r) := fun A B => by
      iintro ⟨Hp, -, Hr⟩
      isplitl [Hr]; · iexact Hr
      iexact Hp
    exact (h _ _).trans (hin1 (V1 m ρ) c)
  hout c := by
    rw [Pipeline.ownSems0_none]
    have h : ∀ (B : sProp 𝕄), iprop(B ∗ ∃ r, prngReg c r) ⊢ iprop(iprop(∃ r, prngReg c r) ∗ BI.emp ∗ B) := fun B => by
      iintro ⟨Hr, Hp⟩
      isplitl [Hp]; · iexact Hp
      isplitr; · iempintro
      iexact Hr
    exact (hout1 (V1 m ρ) c).trans (h _)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the program runs to its end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.Kernel.Hand

end
-- ==== Proof.FrameNumerIdeal.lean ====
/-
  The first kernel region (one grid point per batch element): for one batch element it reads the element's
  [1024, 256] block of vectors and the whole [1024, 1024] arrays S and W, and stores one [8, 128] block holding a single
  number in every entry. This module is the region's half of the frame argument, at any float instance: the body runs
  to its end on whole staging buffers without faulting, the three input buffers end as they were, and the output's
  buffer ends at the pieces the body stored, which tile it. The region's proof data follow: the arrays as the region
  finds them, after each point every input buffer at its block and the output buffer at what the body left.
-/
import proofs.«154336_j22299470201233_1_alg».proof.Proof.Gen.KernelIdeal.Launch
import proofs.«154336_j22299470201233_1_alg».proof.Proof.Gen.KernelIdeal.Skeleton
import proofs.«154336_j22299470201233_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region

/-- One staging buffer of the output window, through which its contents are stated. -/
abbrev VO0_3 : View sig .tc .vmem S1x8x128 .f32 := (Memref.whole cc0_stg3_0 : Memref sig .tc .vmem S1x8x128 .f32).view

set_option maxHeartbeats 4000000 in
/-- The body on whole staging buffers, the three inputs' at contents `x0 x1 x2` and the output's at anything, runs to
    the continuation holding the inputs' as they were and the output's with the stored pieces written; the pieces are
    what the run finds. -/
noncomputable def kernelRun0 (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) :
    { L3 : List (View.Piece (Elt F) S1x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__numer_kernel i arg1 harg1 arg2 harg2 arg3 harg3 arg4 harg4) K } := by
  refine ⟨?_, fun E K => ?run⟩
  case run =>
    simp only [cc0__numer_kernel_eq_skeleton]; unfold cc0__numer_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The stored pieces tile the output's block, so they cover it. -/
theorem cover0_3 (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) (y : S1x8x128.Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S1x8x128.size (by sl_kernel_rfl) y

/-- What the body leaves in the output's staging buffer: its pieces read back. -/
def out0_3 (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) : Vec F S1x8x128 .f32 :=
  VO0_3.read (Elt F) (VO0_3.writes (Elt F) VO0_3.junk (kernelRun0 c i arg1 harg1 arg2 harg2 arg3 harg3 arg4 harg4 x0 x1 x2).1)

section Region
variable (V : (c : Dev nD) → (b : Ref sig .tc) → Buf (Elt F) ((c : Thread nD τ).loc b))

/-- The output's buffer after the body at point `t`, from the point's input blocks. -/
def outAt0 (c : Dev nD) (t : Fin cfg0.N) : Vec F S1x8x128 .f32 :=
  out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
    (iblk0 V c 0 t) (iblk0 V c 1 t) (iblk0 V c 2 t)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 2000000 in
/-- The body at any point: the inputs' buffers hold their blocks, so the run applies; the invariant and the core's dues pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.FrameDenomRunsIdeal.lean ====
/-
  The second kernel region (eight grid points, one per 128-row strip of W): the body adds the strip's sum of squares of
  W - I onto a one-element scratch that it zeroes at the first point, and at the last point stores the scratch's square
  root into every entry of the [8, 128] output block. Its control has three cases: the first point (zero, then add), a
  middle point (add), the last point (add, then store out). This module decides the two branch conditions over the
  grid, says where the output window is idle, and runs the body once per case on whole buffers, at any float instance:
  the inputs end as they were, and the scratch and (in the last case) the output end at the stored pieces.
-/
import proofs.«154336_j22299470201233_1_alg».proof.Proof.Gen.KernelIdeal.Launch
import proofs.«154336_j22299470201233_1_alg».proof.Proof.Gen.KernelIdeal.Skeleton
import proofs.«154336_j22299470201233_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch's condition (zero the scratch), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The last branch's condition (store the result out), from the grid coordinate. -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-! ## The buffers -/

abbrev VO1_1 : View sig .tc .vmem S8x128 .f32 := (Memref.whole cc1_stg1_0 : Memref sig .tc .vmem S8x128 .f32).view
abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
/-- The scratch operand: a whole scoped buffer of the kernel's own. -/
abbrev scM1_0 : Memref sig .tc .vmem S1x1 .f32 := Memref.whole cc1_scratch0
abbrev VS1_0 : View sig .tc .vmem S1x1 .f32 := scM1_0.view

/-- The class invariant with the scratch operand as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case -/

set_option maxHeartbeats 1000000 in
/-- The first point: the scratch at anything is zeroed, then the strip's sum is added; the output is left untouched. -/
noncomputable def kernelRun1_A (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) :
    { LS0 : List (View.Piece (Elt F) S1x1 .f32) //
      ∀ (xi1 : Vec F S8x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__denom_kernel i arg1 harg1 arg2 harg2 arg3 harg3) K } := by
  refine ⟨?_, fun xi1 E K => ?run⟩
  case run =>
    simp only [cc1__denom_kernel_eq_skeleton]; unfold cc1__denom_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A middle point: the strip's sum is added onto the scratch as the point before left it; the output is left untouched. -/
noncomputable def kernelRun1_B (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) :
    { LS0 : List (View.Piece (Elt F) S1x1 .f32) //
      ∀ (xi1 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__denom_kernel i arg1 harg1 arg2 harg2 arg3 harg3) K } := by
  refine ⟨?_, fun xi1 E K => ?run⟩
  case run =>
    simp only [cc1__denom_kernel_eq_skeleton]; unfold cc1__denom_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- The last point: the strip's sum is added onto the scratch, and the scratch's square root is stored over the whole
    output block. -/
noncomputable def kernelRun1_C (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) :
    Σ' (L1 : List (View.Piece (Elt F) S8x128 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__denom_kernel i arg1 harg1 arg2 harg2 arg3 harg3) K } := by
  refine ⟨?_, ?_, fun E K => ?run⟩
  case run =>
    simp only [cc1__denom_kernel_eq_skeleton]; unfold cc1__denom_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.FrameDenomIdeal.lean ====
/-
  The second kernel region's half of the frame argument, at any float instance. What the one-element scratch holds
  after each grid point is a recursion over the points: the first point's contents come from that point's strip alone,
  every later point's from its strip and what the point before left. The region's invariant carries the scratch at
  exactly those contents from one point to the next (before the first point it is at anything, and so are the first
  region's staging buffers throughout). The output window is idle, and not written back, at every point but the last,
  where the body stores its whole block.
-/
import proofs.«154336_j22299470201233_1_alg».proof.Proof.FrameDenomRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in the scratch: its pieces read back. -/
def sout1_A_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) : Vec F S1x1 .f32 :=
  VS1_0.read (Elt F) (VS1_0.writes (Elt F) VS1_0.junk (kernelRun1_A c i arg1 harg1 arg2 harg2 arg3 harg3 hc0 hc1 x0).1)
theorem scover1_A_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) (y : S1x1.Idx) :
    ∃ pc ∈ (kernelRun1_A c i arg1 harg1 arg2 harg2 arg3 harg3 hc0 hc1 x0).1, y ∈ pc.1.set :=
  View.cover_of_tiledL (kernelRun1_A c i arg1 harg1 arg2 harg2 arg3 harg3 hc0 hc1 x0).1 S1x1.size (by sl_kernel_rfl) y

/-- What a middle point leaves in the scratch. -/
def sout1_B_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) : Vec F S1x1 .f32 :=
  VS1_0.read (Elt F) (VS1_0.writes (Elt F) VS1_0.junk (kernelRun1_B c i arg1 harg1 arg2 harg2 arg3 harg3 hc0 hc1 x0 xs0).1)
theorem scover1_B_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) (y : S1x1.Idx) :
    ∃ pc ∈ (kernelRun1_B c i arg1 harg1 arg2 harg2 arg3 harg3 hc0 hc1 x0 xs0).1, y ∈ pc.1.set :=
  View.cover_of_tiledL (kernelRun1_B c i arg1 harg1 arg2 harg2 arg3 harg3 hc0 hc1 x0 xs0).1 S1x1.size (by sl_kernel_rfl) y

/-- What the last point leaves in the output's staging buffer and in the scratch. -/
def out1_C_1 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) : Vec F S8x128 .f32 :=
  VO1_1.read (Elt F) (VO1_1.writes (Elt F) VO1_1.junk (kernelRun1_C c i arg1 harg1 arg2 harg2 arg3 harg3 hc0 hc1 x0 xs0).1)
theorem cover1_C_1 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) (y : S8x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S8x128.size (by sl_kernel_rfl) y
def sout1_C_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) : Vec F S1x1 .f32 :=
  VS1_0.read (Elt F) (VS1_0.writes (Elt F) VS1_0.junk (kernelRun1_C c i arg1 harg1 arg2 harg2 arg3 harg3 hc0 hc1 x0 xs0).2.1)
theorem scover1_C_0 (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) (y : S1x1.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S1x1.size (by sl_kernel_rfl) y

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A placeholder for the output's buffer at the points where its window is idle: nothing reads it. -/
def idleOut : Vec F S8x128 .f32 := VO1_1.read (Elt F) VO1_1.junk

/-- THE ACCUMULATION: what the output's staging buffer and the scratch hold after the body at position `n`. -/
def outsAt1 (c : Dev nD) : (n : ℕ) → n < cfg1.N → Vec F S8x128 .f32 × Vec F S1x1 .f32
  | 0, hn => (idleOut, sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩))
  | n + 1, hn =>
    if h1 : n + 1 = 7 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (outsAt1 c n (Nat.lt_of_succ_lt hn)).2)
    else
      (idleOut,
       sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val = 0) (h1 : ¬t.val = 7) :
    outsAt1 V c t.val t.isLt = (idleOut, sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 7) :
    outsAt1 V c t.val t.isLt = (idleOut, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 7) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2,
      sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-- The scoped buffers no window of this region stages, the first region's staging buffers at anything and the scratch at `X`. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ X)

theorem PhiA1_eq' (c : Dev nD) :
    (Pipeline.ΦA spec1 c : sProp 𝕄) = iprop(restWith c (iprop(∃ d, owns (c : Thread nD τ) scM1_0 fullShare d)) ∗ (∃ r, prngReg c r)) := by
  rw [PhiA1_eq]; rfl

/-- The region invariant before position `n`. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the input's buffer holds its block; the point's position says which case it is in; the invariant
    hands the body the scratch at what the point before left (at anything at the first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  by_cases h0 : t.val = 0
  · have h1 : ¬t.val = 7 := by omega
    rw [Dat.leavesExact_idle (dat1 V c) 1 t (idleAt1_1 t (fun h => h1 ((hcond1_1 t).mp h))) (noFlush1_1 t (fun h => h1 ((hcond1_1 t).mp h)))]
    rw [outsAt1_A V c t h0 h1]
    unfold sout1_A_0; (try dsimp only)
    rw [PhiS_castSucc V c t, PhiS_zero V c _ _ h0, PhiA1_eq']
    unfold restWith
    iintro ⟨⟨⟨Ha, Hb, Hc, Hd, He, Hf, HS0⟩, Hg⟩, Ho, ⟨%d0, H0⟩, ⟨%d1, H1⟩⟩
    iapply ((kernelRun1_A c (grid1.coords t) _ _ _ _ _ _ ((hcond1_0 t).mpr h0) (fun h => h1 ((hcond1_1 t).mp h)) (iblk1 V c 0 t)).2 _ Set.univ _)
    isplitl [H0]; · iexact H0
    isplitl [H1]; · iexact H1
    isplitl [HS0]; · iexact HS0
    iintro ⟨H0, H1, ⟨%es0, HS0⟩⟩
    isplitl [Ha Hb Hc Hd He Hf HS0 Hg]
    · isplitl [Ha Hb Hc Hd He Hf HS0]
      · isplitl [Ha]; · iexact Ha
        isplitl [Hb]; · iexact Hb
        isplitl [Hc]; · iexact Hc
        isplitl [Hd]; · iexact Hd
        isplitl [He]; · iexact He
        isplitl [Hf]; · iexact Hf
        unfold owns; iexists _; isplitr
        swap; · iexact HS0
        ipureintro; exact View.read_writes_of_cover _ _ _ _ _ (scover1_A_0 c _ _ _ _ _ _ _ _ _ _)
      iexact Hg
    isplitl [Ho]; · iexact Ho
    isplitl [H0]; · iexact H0
    iexists _; iexact H1
  · by_cases h1 : t.val = 7
    · rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C_1 sout1_C_0; (try dsimp only)
      rw [PhiS_castSucc V c t, PhiS_pos V c _ _ h0]
      unfold restWith
      iintro ⟨⟨⟨Ha, Hb, Hc, Hd, He, Hf, HS0⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B_0; (try dsimp only)
      rw [PhiS_castSucc V c t, PhiS_pos V c _ _ h0]
      unfold restWith
      iintro ⟨⟨⟨Ha, Hb, Hc, Hd, He, Hf, HS0⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2 _ Set.univ _)
      isplitl [H0]; · iexact H0
      isplitl [H1]; · iexact H1
      isplitl [HS0]; · iexact HS0
      iintro ⟨H0, H1, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B_0 c _ _ _ _ _ _ _ _ _ _ _)
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 8 := N_1; omega
  rw [show (dat1 V c).Φ (Fin.last cfg1.N) = PhiS V c (Fin.last cfg1.N).val (Nat.le_of_lt_succ (Fin.last cfg1.N).isLt) from rfl, PhiS_pos V c _ _ ht, PhiA1_eq']
  unfold restWith
  iintro ⟨⟨Ha, Hb, Hc, Hd, He, Hf, HS0⟩, Hg⟩
  isplitl [Ha Hb Hc Hd He Hf HS0]
  · isplitl [Ha]; · iexact Ha
    isplitl [Hb]; · iexact Hb
    isplitl [Hc]; · iexact Hc
    isplitl [Hd]; · iexact Hd
    isplitl [He]; · iexact He
    isplitl [Hf]; · iexact Hf
    iexists _; iexact HS0
  iexact Hg

end Region

end Cert.KernelIdeal.Hand

end
-- ==== Proof.FrameRunIdeal.lean ====
/-
  The whole program's run, at any float instance: the first kernel region, the second, then eleven host operations. The
  buffers' contents at each boundary are a fold from the launch memory: a region leaves its arrays at what its
  write-backs leave and every other buffer as it was, the host stretch leaves the operations' results. Each region is a
  segment entered from "every unscoped buffer whole at the boundary's contents, the generator register at some state,
  nothing owed" and left at the next boundary's; the second region's invariant is the one that carries its scratch. At the
  end every unscoped buffer is read at the last boundary's contents: the three arguments are what they were at launch
  (no operation and no region writes one), and the result is the host operations' term of what the regions left.
-/
import proofs.«154336_j22299470201233_1_alg».proof.Proof.FrameNumerIdeal
import proofs.«154336_j22299470201233_1_alg».proof.Proof.FrameDenomIdeal
import proofs.«154336_j22299470201233_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the host operations: the end. -/
abbrev W3 : Dev nD → Valuation τ sig (Elt F) := fun c => StableHlo.after hostOps2 (W2 m ρ c)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps2 _ hostOps2_writes (by decide)
    _ = W1 m ρ c (Proc.devRef .tc main_arg2) := (W2_arr m ρ c 0).trans (((dat1 (V1 m ρ) c).arrAt_in 0 rfl _).trans (A_eq1 (V1 m ρ) c 0))
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`; its invariant
    starts at the class's and ends giving the class's back. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (A B : sProp 𝕄), iprop(iprop(∃ r, prngReg c r) ∗ A ∗ B) ⊢ iprop(B ∗ ∃ r, prngReg c r) := fun A B => by
      iintro ⟨Hp, -, Hr⟩
      isplitl [Hr]; · iexact Hr
      iexact Hp
    exact (h _ _).trans (hin1 (V1 m ρ) c)
  hout c := by
    rw [Pipeline.ownSems0_none]
    have h : ∀ (B : sProp 𝕄), iprop(B ∗ ∃ r, prngReg c r) ⊢ iprop(iprop(∃ r, prngReg c r) ∗ BI.emp ∗ B) := fun B => by
      iintro ⟨Hr, Hp⟩
      isplitl [Hp]; · iexact Hp
      isplitr; · iempintro
      iexact Hr
    exact (hout1 (V1 m ρ) c).trans (h _)
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the program runs to its end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Hand

end
-- ==== Proof.NumerBody.lean ====
/-
  What the first kernel region stores, restated as one formula of the point's three input blocks, at any float
  instance. The body walks the 1024 rows of the distance matrix in eight strips of 128 rows. For a strip starting at row
  `off` it forms the strip of squared distances from the Gram product of the strip's rows with all rows, offsets the
  diagonal, takes exp(-1 · sqrt), zeroes the diagonal, subtracts S with its diagonal lowered by 1, multiplies by W, and
  squares; the strip's total is its row sums summed. The stored block holds, in every entry, the square root of the
  strips' totals added one after another onto zero. The equation with what the body's run found is structural: both
  sides are the same operations in the same order.
-/
import proofs.«154336_j22299470201233_1_alg».proof.Proof.FrameNumerIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The strip of the identity matrix whose first row is the word `o`: 1 where row + o = column, else 0. -/
def eyeStrip (o : BitVec 32) : FVec F S128x1024 .f32 :=
  sitofp .f32 (extui 32 (cmpi .eq (addi (broadcast S128x1024 o) (iota .tc S128x1024 32 [0] iota_S128x1024_d0_w32))
    (iota .tc S128x1024 32 [1] iota_S128x1024_d1_w32)) natLt_1_32)

/-- The strip of squared distances, clipped below at zero: row norms plus column norms minus twice the Gram strip. -/
def dist2Strip (off : ℕ) (h1 : S1024x256.Slices ![off, 0] S128x256) (h2 : S1024x1.Slices ![off, 0] S128x1)
    (v2 : FVec F S1024x256 .bf16) (v3 : FVec F S256x1024 .bf16) (v6 : FVec F S1024x1 .f32) (v7 : FVec F S1x1024 .f32) : FVec F S128x1024 .f32 :=
  maximumf
    (subf (addf (broadcastTo S128x1024 (extractStridedSlice S128x1 ![off, 0] v6 h2) broadcasts_S128x1_S128x1024)
        (broadcastTo S128x1024 v7 broadcasts_S1x1024_S128x1024))
      (mulf (broadcast S128x1024 (Scalar.ofBits .f32 0x40000000#32))
        (matmul dot_S128x256_S256x1024_S128x1024_1_0_0_1_n_n none (extractStridedSlice S128x256 ![off, 0] v2 h1) v3
          (constant S128x1024 .f32 0x00000000#32))))
    (broadcast S128x1024 (Scalar.ofBits .f32 0x00000000#32))

/-- The kernel matrix's strip with its diagonal zeroed. -/
def kdStrip (d2 e : FVec F S128x1024 .f32) : FVec F S128x1024 .f32 :=
  mulf (exp (mulf (broadcast S128x1024 (Scalar.ofBits .f32 0xBF800000#32)) (sqrt (addf d2 e))))
    (subf (broadcast S128x1024 (Scalar.ofBits .f32 0x3F800000#32)) e)

/-- S's strip with its diagonal lowered by one. -/
def sStrip (e : FVec F S128x1024 .f32) (s : Vec F S128x1024 .f32) : FVec F S128x1024 .f32 :=
  subf s (mulf (broadcast S128x1024 (Scalar.ofBits .f32 0x3F800000#32)) e)

/-- The strip's entries W ∘ (kernel matrix - lowered S), squared. -/
def sqStrip (kd st : FVec F S128x1024 .f32) (w : Vec F S128x1024 .f32) : FVec F S128x1024 .f32 :=
  mulf (mulf w (subf kd st)) (mulf w (subf kd st))

/-- The total of a [128, 1024] block: its row sums, summed, as a [1, 1] block. -/
def total (x : FVec F S128x1024 .f32) : FVec F S1x1 .f32 :=
  shapeCast S1x1 (multiReduction .add [0] S1 (shapeCast S128x1 (multiReduction .add [1] S128 x 0x00000000#32 reduces_S128x1024_S128 (.inl rfl) rfl) shapeCasts_S128_S128x1) 0x00000000#32 reduces_S128x1_S1 (.inl rfl) rfl) shapeCasts_S1_S1x1

/-- One strip's total. -/
def stripTotal (off : ℕ) (o : BitVec 32) (h1 : S1024x256.Slices ![off, 0] S128x256) (h2 : S1024x1.Slices ![off, 0] S128x1)
    (v2 : FVec F S1024x256 .bf16) (v3 : FVec F S256x1024 .bf16) (v6 : FVec F S1024x1 .f32) (v7 : FVec F S1x1024 .f32)
    (s w : Vec F S128x1024 .f32) : FVec F S1x1 .f32 :=
  total (sqStrip (kdStrip (dist2Strip off h1 h2 v2 v3 v6 v7) (eyeStrip o)) (sStrip (eyeStrip o) s) w)

/-- The rows `off … off + 127` of a [1024, 1024] buffer. -/
abbrev rows0 : Rect S1024x1024 := Rect.unit (s := S1024x1024) ![0, 0] S128x1024.size inb_S1024x1024_S128x1024_0_0
abbrev rows128 : Rect S1024x1024 := Rect.unit (s := S1024x1024) ![128, 0] S128x1024.size inb_S1024x1024_S128x1024_128_0
abbrev rows256 : Rect S1024x1024 := Rect.unit (s := S1024x1024) ![256, 0] S128x1024.size inb_S1024x1024_S128x1024_256_0
abbrev rows384 : Rect S1024x1024 := Rect.unit (s := S1024x1024) ![384, 0] S128x1024.size inb_S1024x1024_S128x1024_384_0
abbrev rows512 : Rect S1024x1024 := Rect.unit (s := S1024x1024) ![512, 0] S128x1024.size inb_S1024x1024_S128x1024_512_0
abbrev rows640 : Rect S1024x1024 := Rect.unit (s := S1024x1024) ![640, 0] S128x1024.size inb_S1024x1024_S128x1024_640_0
abbrev rows768 : Rect S1024x1024 := Rect.unit (s := S1024x1024) ![768, 0] S128x1024.size inb_S1024x1024_S128x1024_768_0
abbrev rows896 : Rect S1024x1024 := Rect.unit (s := S1024x1024) ![896, 0] S128x1024.size inb_S1024x1024_S128x1024_896_0

/-- The eight strips' totals added one after another onto zero. -/
def sumSq (x0 : Vec F S1x1024x256 .f32) (x1 x2 : Vec F S1024x1024 .f32) : FVec F S1x1 .f32 :=
  addf (addf (addf (addf (addf (addf (addf (addf (k0_pay7
    ) (stripTotal 0 0#32 slices_S1024x256_o0_0_S128x256 slices_S1024x1_o0_0_S128x1 (k0_pay3 x0) (k0_pay4 x0) (k0_pay5 x0) (k0_pay6 x0) (View.ld x1 rows0) (View.ld x2 rows0))
    ) (stripTotal 128 128#32 slices_S1024x256_o128_0_S128x256 slices_S1024x1_o128_0_S128x1 (k0_pay3 x0) (k0_pay4 x0) (k0_pay5 x0) (k0_pay6 x0) (View.ld x1 rows128) (View.ld x2 rows128))
    ) (stripTotal 256 256#32 slices_S1024x256_o256_0_S128x256 slices_S1024x1_o256_0_S128x1 (k0_pay3 x0) (k0_pay4 x0) (k0_pay5 x0) (k0_pay6 x0) (View.ld x1 rows256) (View.ld x2 rows256))
    ) (stripTotal 384 384#32 slices_S1024x256_o384_0_S128x256 slices_S1024x1_o384_0_S128x1 (k0_pay3 x0) (k0_pay4 x0) (k0_pay5 x0) (k0_pay6 x0) (View.ld x1 rows384) (View.ld x2 rows384))
    ) (stripTotal 512 512#32 slices_S1024x256_o512_0_S128x256 slices_S1024x1_o512_0_S128x1 (k0_pay3 x0) (k0_pay4 x0) (k0_pay5 x0) (k0_pay6 x0) (View.ld x1 rows512) (View.ld x2 rows512))
    ) (stripTotal 640 640#32 slices_S1024x256_o640_0_S128x256 slices_S1024x1_o640_0_S128x1 (k0_pay3 x0) (k0_pay4 x0) (k0_pay5 x0) (k0_pay6 x0) (View.ld x1 rows640) (View.ld x2 rows640))
    ) (stripTotal 768 768#32 slices_S1024x256_o768_0_S128x256 slices_S1024x1_o768_0_S128x1 (k0_pay3 x0) (k0_pay4 x0) (k0_pay5 x0) (k0_pay6 x0) (View.ld x1 rows768) (View.ld x2 rows768))
    ) (stripTotal 896 896#32 slices_S1024x256_o896_0_S128x256 slices_S1024x1_o896_0_S128x1 (k0_pay3 x0) (k0_pay4 x0) (k0_pay5 x0) (k0_pay6 x0) (View.ld x1 rows896) (View.ld x2 rows896))

/-- The stored block: the square root of that sum in every entry. -/
def numerBody (x0 : Vec F S1x1024x256 .f32) (x1 x2 : Vec F S1024x1024 .f32) : FVec F S1x8x128 .f32 :=
  shapeCast S1x8x128 (broadcastTo S8x128 (shapeCast S1x1 (sqrt (sumSq x0 x1 x2)) shapeCasts_S1x1_S1x1) broadcasts_S1x1_S8x128) shapeCasts_S8x128_S1x8x128

theorem zero3 : (![0, 0, 0] : Fin 3 → Nat) = fun _ => 0 := funext fun a => by fin_cases a <;> rfl

set_option maxHeartbeats 4000000 in
/-- What the run found in the output's buffer is that block. -/
theorem out0_3_eq (c : Dev nD) (i : grid0.Coords) (arg1 : Memref sig .tc .vmem S1x1024x256 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x8x128 .f32) (harg4 : arg4.IsWhole)
    (x0 : Vec F S1x1024x256 .f32) (x1 x2 : Vec F S1024x1024 .f32) :
    out0_3 c i arg1 harg1 arg2 harg2 arg3 harg3 arg4 harg4 x0 x1 x2 = numerBody x0 x1 x2 := by
  unfold out0_3
  rw [View.read_writes_eq_canon _ _ _ (cover0_3 c i arg1 harg1 arg2 harg2 arg3 harg3 arg4 harg4 x0 x1 x2)]
  unfold kernelRun0
  dsimp only
  sl_unfold_words
  rw [View.canon_unit_zero (S := S1x8x128) zero3]
  simp only [View.readAt_eq_ld, harg1.read_unread, harg2.read_unread, harg3.read_unread]
  simp only [View.ld_unit_zero (S := S1x1024x256) zero3]
  rfl

end Cert.KernelIdeal.Hand

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.LossSpec.lean ====
/-
  The loss both programs compute, as one formula of the three argument arrays on the extended reals.
  For a batch element b the matrix of squared distances is sq(b,r) + sq(b,c) - 2·⟨d(b,r), d(b,c)⟩ clipped below at 0, with
  sq the squared norm of a row of vectors; the diagonal is offset by 1 before the square root, the kernel matrix is
  exp(-1 · distance) with its diagonal zeroed, and the batch element's numerator is the Frobenius norm of
  W ∘ (kernel matrix - (S - I)). The denominator is the Frobenius norm of W - I, and the loss is the sum over the batch
  of 2 · numerator / denominator. The float constants stay the bit patterns the programs print; only the zero pattern
  is ever evaluated.
  The one law the certificate needs beyond this formula: a sum of 1024 terms is its eight consecutive strips of 128
  terms added one after another onto zero (addition of extended reals is commutative and associative; nothing here needs
  the terms finite).
-/
import Idealize.ShloMosaic.PureOps.Ideal
import Idealize.ShloMosaic.PureOps.Ideal.Laws
import Idealize.ShloMosaic.Lib.ValueIdx
import proofs.«154336_j22299470201233_1_alg».proof.Proof.LibSumRuns

noncomputable section

open scoped BigOperators

namespace Cert.RbfLoss

open Idealize.ShloMosaic Idealize.ShloMosaic.ValueIdx

/-- The shapes of the batch of vectors, of one batch element's block, and of the two square matrices. -/
abbrev D3 : Shape := ⟨3, ![64, 1024, 256]⟩
abbrev B3 : Shape := ⟨3, ![1, 1024, 256]⟩
abbrev M2 : Shape := ⟨2, ![1024, 1024]⟩

/-- The identity matrix's entry. -/
def eye (r c : ℕ) : EReal := if r = c then 1 else 0

/-- The programs' float constants 2, -1 and 1, as the patterns they print. -/
def two : EReal := Ideal.ofBits .f32 0x40000000#32
def negOne : EReal := Ideal.ofBits .f32 0xBF800000#32
def one : EReal := Ideal.ofBits .f32 0x3F800000#32

variable (d : D3.Idx → EReal) (x : B3.Idx → EReal) (S W : M2.Idx → EReal)

/-- Batch element b's block of vectors. -/
def blockOf (b : Fin 64) : B3.Idx → EReal := fun j => d (ix3 b ⟨(j 1).val, (j 1).isLt⟩ ⟨(j 2).val, (j 2).isLt⟩)

/-- The squared norm of vector r of a block. -/
def sqn (r : Fin 1024) : EReal := ∑ k : Fin 256, x (ix3 (0 : Fin 1) r k) * x (ix3 (0 : Fin 1) r k)
/-- The inner product of vectors r and c of a block. -/
def gram (r c : Fin 1024) : EReal := ∑ k : Fin 256, x (ix3 (0 : Fin 1) r k) * x (ix3 (0 : Fin 1) c k)
/-- One entry of W ∘ (kernel matrix with zeroed diagonal - (S - I)). -/
def entry (r c : Fin 1024) : EReal :=
  W (ix2 r c) * (Ideal.exp (negOne * Ideal.sqrt (max (sqn x r + sqn x c - two * gram x r c) 0 + eye r.val c.val))
      * (one - eye r.val c.val) - (S (ix2 r c) - one * eye r.val c.val))
/-- The square of an entry, summed along a row. -/
def rowSq (r : Fin 1024) : EReal := ∑ c : Fin 1024, entry x S W r c * entry x S W r c
/-- A block's numerator. -/
def numerBlk : EReal := Ideal.sqrt (∑ r : Fin 1024, rowSq x S W r)
/-- The batch element's numerator. -/
def numer (b : Fin 64) : EReal := numerBlk (blockOf d b) S W
/-- One entry of W - I, squared and summed along a row. -/
def drowSq (r : Fin 1024) : EReal := ∑ c : Fin 1024, (W (ix2 r c) - eye r.val c.val) * (W (ix2 r c) - eye r.val c.val)
/-- The denominator. -/
def denom : EReal := Ideal.sqrt (∑ r : Fin 1024, drowSq W r)
/-- The loss. -/
def loss : EReal := ∑ b : Fin 64, Ideal.div (two * numer d S W b) (denom W)

/-! ## Strips -/

/-- Row `off + p` of a strip of 128 rows starting at `off`, when the strip lies inside the 1024 rows. -/
def stripRow (off : ℕ) (h : off + 128 ≤ 1024) (p : Fin 128) : Fin 1024 := ⟨off + p.val, by have := p.isLt; omega⟩

/-- The sum of a function of the row over strip `off`. -/
def strip (f : Fin 1024 → EReal) (off : ℕ) (h : off + 128 ≤ 1024) : EReal := ∑ p : Fin 128, f (stripRow off h p)

/-- A sum over the 1024 rows is the eight strips' sums added one after another onto zero. -/
theorem sum_strips (f : Fin 1024 → EReal) :
    0 + strip f 0 (by omega) + strip f 128 (by omega) + strip f 256 (by omega) + strip f 384 (by omega)
      + strip f 512 (by omega) + strip f 640 (by omega) + strip f 768 (by omega) + strip f 896 (by omega)
      = ∑ r : Fin 1024, f r := by
  have h := Cert.Lib.SumRuns.sum_runs (M := EReal) 8 128 (fun k : Fin (8 * 128) => f k)
  rw [show (∑ r : Fin 1024, f r) = ∑ k : Fin (8 * 128), f k from rfl, h, Fin.sum_univ_eight, zero_add]
  simp only [strip, stripRow]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun p _ => congrArg f (Fin.ext (by simp))

end Cert.RbfLoss

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«154336_j22299470201233_1_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibOneHotSelect.lean ====
/-
  Selecting a table row by a one-hot product, and by a gather, read at an index.

  A word `w` compared for equality with each lane number `k`, the one-bit answer widened and converted to a float,
  is the weight `1` at the lane `k = w` and `0` at every other lane. On the extended reals `0 * x = 0` for every `x`
  (infinite ones too) and `1 * x = x`, so the sum over the lanes of weight times entry is the entry at lane `w`,
  whenever `w` is one of the lanes. The same entry is what a gather of whole rows reads when the start index,
  read signed and clamped into the table, is `w`.

  Also here: a word clipped into `[0, hi]` by signed maximum and minimum is a small natural number, and the two
  layout steps that spread an `[a, b]` array of words along a new last axis.
-/
import Idealize.ShloMosaic.Lib.Pipeline.Value
import Idealize.ShloMosaic.Lib.ValueIdx
import Idealize.ShloMosaic.PureOps.Ideal.Laws

namespace Cert.Lib.OneHotSelect

open Idealize.ShloMosaic Idealize.ShloMosaic.ValueIdx

/-! ## The one-hot weight -/

/-- The weight lane `k` gets from the word `w`: the comparison `w = k` as one bit, widened to 32 bits without
    sign, converted to a float. -/
noncomputable def hot (w : BitVec 32) (k : Nat) : EReal :=
  FloatOps.sitofp (F := Ideal) .f32 ((IntOp.cmpi .eq w (BitVec.ofNat 32 k)).setWidth 32)

/-- It is `1` at the lane whose number is the word and `0` elsewhere. -/
theorem hot_eq (w : BitVec 32) (k : Nat) (hk : k < 2 ^ 32) : hot w k = if w.toNat = k then (1 : EReal) else 0 := by
  have e : (w == BitVec.ofNat 32 k) = decide (w.toNat = k) := by
    by_cases h : w.toNat = k
    · have hw : w = BitVec.ofNat 32 k := BitVec.eq_of_toNat_eq (by rw [BitVec.toNat_ofNat, Nat.mod_eq_of_lt hk]; exact h)
      rw [decide_eq_true h, hw]; exact beq_self_eq_true _
    · have hw : w ≠ BitVec.ofNat 32 k := fun hw => h (by rw [hw, BitVec.toNat_ofNat, Nat.mod_eq_of_lt hk])
      rw [decide_eq_false h]; exact beq_false_of_ne hw
  show (((BitVec.setWidth 32 (BitVec.ofBool (w == BitVec.ofNat 32 k))).toInt : ℝ) : EReal) = _
  rw [e]
  by_cases h : w.toNat = k
  · rw [if_pos h, decide_eq_true h]
    show (((1 : ℤ) : ℝ) : EReal) = 1
    simp
  · rw [if_neg h, decide_eq_false h]
    show (((0 : ℤ) : ℝ) : EReal) = 0
    simp

/-- The one-hot product: the sum over the lanes of weight times entry is the entry at the word's lane. No
    finiteness is needed: `0 * x = 0` on the extended reals whatever `x` is. -/
theorem sum_hot_mul {n : Nat} (hn : n ≤ 2 ^ 32) (w : BitVec 32) (hw : w.toNat < n) (f : Fin n → EReal) :
    ∑ k : Fin n, hot w k.val * f k = f ⟨w.toNat, hw⟩ := by
  rw [Finset.sum_eq_single (⟨w.toNat, hw⟩ : Fin n)]
  · rw [hot_eq _ _ (by omega), if_pos rfl, one_mul]
  · intro b _ hb
    rw [hot_eq _ _ (by have := b.isLt; omega), if_neg (fun h => hb (Fin.ext h.symm)), zero_mul]
  · intro h; exact absurd (Finset.mem_univ _) h

/-- Against entries that are all zero the one-hot product is zero. -/
theorem sum_hot_mul_zero {n : Nat} (w : BitVec 32) (f : Fin n → EReal) (hf : ∀ k, f k = 0) :
    ∑ k : Fin n, hot w k.val * f k = 0 :=
  Finset.sum_eq_zero fun k _ => by rw [hf k, mul_zero]

/-! ## A word clipped into a range -/

/-- A word clipped from below at `0` and from above at `hi` (signed maximum, then signed minimum) is, read signed,
    the natural number it is read unsigned, and that number is at most `hi`. -/
theorem clip_range (hi v : BitVec 32) (hhi : hi.toNat < 2 ^ 31) :
    (IntOp.minsi hi (IntOp.maxsi 0#32 v)).toNat ≤ hi.toNat
      ∧ (IntOp.minsi hi (IntOp.maxsi 0#32 v)).toInt = ((IntOp.minsi hi (IntOp.maxsi 0#32 v)).toNat : ℤ) := by
  unfold IntOp.minsi IntOp.maxsi
  simp only [BitVec.slt, decide_eq_true_eq]
  have h0 : (0#32 : BitVec 32).toInt = 0 := by decide
  have hhiI : hi.toInt = (hi.toNat : ℤ) := by rw [BitVec.toInt_eq_toNat_cond]; rw [if_pos (by omega)]
  by_cases hv : v.toInt < (0#32 : BitVec 32).toInt
  · rw [if_pos hv]
    by_cases h2 : hi.toInt < (0#32 : BitVec 32).toInt
    · rw [if_pos h2]; exact ⟨le_refl _, hhiI⟩
    · rw [if_neg h2]; exact ⟨by show 0 ≤ _; omega, by decide⟩
  · rw [if_neg hv]
    have hvI : v.toInt = (v.toNat : ℤ) := by
      rw [BitVec.toInt_eq_toNat_cond] at hv ⊢
      split at hv
      · rename_i hlt; rw [if_pos hlt]
      · rw [h0] at hv; have := v.isLt; omega
    by_cases h2 : hi.toInt < v.toInt
    · rw [if_pos h2]; exact ⟨le_refl _, hhiI⟩
    · rw [if_neg h2]; exact ⟨by rw [hhiI, hvI] at h2; omega, hvI⟩

/-! ## Spreading an array of words along a new last axis -/

variable {α : Type}

/-- An `[a, b]` array cast to `[a, b, 1]` reads, at `(i, k, u)`, the operand at `(i, k)`: both have row-major
    position `i * b + k`, the unit coordinate `u` being `0`. -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An `[a, b, 1]` array broadcast to `[a, b, c]` reads, at `(i, k, j)`, the operand at `(i, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-! ## A gather of whole rows at an `[A, B, 1]` array of start indices -/

/-- The dimension numbers of `table[idx]` for a table `[N, D]` and an index array `[A, B]` (carried as
    `[A, B, 1]`): the row axis collapsed and addressed by the one component of the start index, the column axis kept
    whole as the result's last axis. -/
abbrev rowsDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- The gather read at `(p, l, e)`: the table at column `e` of the row whose number is the start index
    `idx[p, l, 0]`, read signed and clamped into `[0, N - 1]`. -/
theorem gather_rows3_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (p : Fin A) (l : Fin B) (e : Fin D) :
    Host.gather (rowsDims N D A B wf) x idx (ix3 p l e)
      = x (ix2 (⟨min (idx (ix3 p l (0 : Fin 1))).toInt.toNat (N - 1), by omega⟩ : Fin N) e) := by
  unfold Host.gather
  refine congrArg x (funext fun a => Fin.ext ?_)
  match a with
  | ⟨0, _⟩ =>
    show (rowsDims N D A B wf).start (ix3 p l e) idx 0 + (rowsDims N D A B wf).batchCoord (ix3 p l e) 0
      + (rowsDims N D A B wf).offCoord (ix3 p l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D A B wf).startIndexMap from List.mem_singleton.mpr rfl)]
    have hsi : (rowsDims N D A B wf).siIdx (ix3 p l e) ⟨List.idxOf (0 : Fin 2) (rowsDims N D A B wf).startIndexMap,
        List.idxOf_lt_length_iff.2 (List.mem_singleton.mpr rfl)⟩ = ix3 p l (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D A B wf).start (ix3 p l e) idx 1 + (rowsDims N D A B wf).batchCoord (ix3 p l e) 1
      + (rowsDims N D A B wf).offCoord (ix3 p l e) 1 = e.val
    rw [GatherDims.batchCoord_eq_zero _ _ _ List.not_mem_nil]
    have hst : (rowsDims N D A B wf).start (ix3 p l e) idx 1 = 0 := by
      unfold GatherDims.start
      rw [dif_neg (show (1 : Fin 2) ∉ ([0] : List (Fin 2)) by decide)]
    rw [hst]
    simp only [Nat.add_zero, Nat.zero_add]
    rfl

end Cert.Lib.OneHotSelect
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.StripValue.lean ====
/-
  The first kernel region's stored block, read over the extended reals: every entry is the block's numerator of the
  specification. The block's vectors: dropping the unit axis, rounding to the narrower format (the identity here) and
  transposing only re-index; the row sums of squares are the squared norms, as a column and as a row. A strip: the
  product of the strip's rows with all rows is the Gram strip, the row-plus-column broadcast sum gives the two squared
  norms, the compared row and column numbers give the identity's entry, and the rest is entry by entry. A block's total
  is the double sum of its entries. So a strip's total is the specification's row sums over that strip, and the eight
  strips folded from zero are the sum over all rows.
-/
import proofs.«154336_j22299470201233_1_alg».proof.Proof.NumerBody
import proofs.«154336_j22299470201233_1_alg».proof.Proof.LossSpec
import proofs.«154336_j22299470201233_1_alg».proof.Proof.LibRowReduceColumn
import proofs.«154336_j22299470201233_1_alg».proof.Proof.LibOneHotSelect
import proofs.«154336_j22299470201233_1_alg».proof.Proof.LibSplitContraction
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx
open Cert.RbfLoss (eye two negOne one sqn gram entry rowSq numerBlk strip stripRow M2)

/-! ## The block's vectors -/

variable (x0 : Vec Ideal S1x1024x256 .f32)

theorem pay2_at (r : Fin 1024) (k : Fin 256) : k0_pay2 x0 (ix2 r k) = x0 (ix3 (0 : Fin 1) r k) := by
  unfold k0_pay2; exact shapeCast_1ab_ab_apply x0 _ r k
theorem pay3_at (r : Fin 1024) (k : Fin 256) : k0_pay3 x0 (ix2 r k) = x0 (ix3 (0 : Fin 1) r k) := by
  unfold k0_pay3; exact pay2_at x0 r k
theorem pay4_at (k : Fin 256) (r : Fin 1024) : k0_pay4 x0 (ix2 k r) = x0 (ix3 (0 : Fin 1) r k) := by
  unfold k0_pay4; exact (transpose_ix2_apply (k0_pay3 x0) _ k r).trans (pay3_at x0 r k)
theorem pay5_at (r : Fin 1024) (u : Fin 1) : k0_pay5 x0 (ix2 r u) = sqn x0 r := by
  unfold k0_pay5
  refine (Cert.Lib.RowReduceColumn.rowSum_column_apply (mulf (k0_pay2 x0) (k0_pay2 x0)) reduces_S1024x256_S1024 (.inl rfl) rfl shapeCasts_S1024_S1024x1 r u).trans ?_
  exact Finset.sum_congr rfl fun k _ => by rw [mulf_apply, pay2_at]
theorem pay6_at (u : Fin 1) (r : Fin 1024) : k0_pay6 x0 (ix2 u r) = sqn x0 r := by
  unfold k0_pay6; exact (transpose_ix2_apply (k0_pay5 x0) _ u r).trans (pay5_at x0 r u)

/-! ## The Gram strip -/

theorem dot_l0 (j : S128x1024.Idx) (q : dot_S128x256_S256x1024_S128x1024_1_0_0_1_n_n.contr.Idx) : (dot_S128x256_S256x1024_S128x1024_1_0_0_1_n_n.lhsIdx j q 0).val = (j 0).val := by
  unfold DotDims.lhsIdx
  rw [dif_neg (show ¬(0 : Fin S128x256.rank) ∈ dot_S128x256_S256x1024_S128x1024_1_0_0_1_n_n.lhsBatch by decide), dif_pos (show (0 : Fin S128x256.rank) ∈ dot_S128x256_S256x1024_S128x1024_1_0_0_1_n_n.lhsNonContracting by decide)]
  rfl
theorem dot_l1 (j : S128x1024.Idx) (q : dot_S128x256_S256x1024_S128x1024_1_0_0_1_n_n.contr.Idx) : (dot_S128x256_S256x1024_S128x1024_1_0_0_1_n_n.lhsIdx j q 1).val = (q ⟨0, by decide⟩).val :=
  dot_S128x256_S256x1024_S128x1024_1_0_0_1_n_n.lhsIdx_val_of_single rfl j q
theorem dot_r0 (j : S128x1024.Idx) (q : dot_S128x256_S256x1024_S128x1024_1_0_0_1_n_n.contr.Idx) : (dot_S128x256_S256x1024_S128x1024_1_0_0_1_n_n.rhsIdx j q 0).val = (q ⟨0, by decide⟩).val :=
  dot_S128x256_S256x1024_S128x1024_1_0_0_1_n_n.rhsIdx_val_of_single rfl j q
theorem dot_r1 (j : S128x1024.Idx) (q : dot_S128x256_S256x1024_S128x1024_1_0_0_1_n_n.contr.Idx) : (dot_S128x256_S256x1024_S128x1024_1_0_0_1_n_n.rhsIdx j q 1).val = (j 1).val := by
  unfold DotDims.rhsIdx
  rw [dif_neg (show ¬(1 : Fin S256x1024.rank) ∈ dot_S128x256_S256x1024_S128x1024_1_0_0_1_n_n.rhsBatch by decide), dif_pos (show (1 : Fin S256x1024.rank) ∈ dot_S128x256_S256x1024_S128x1024_1_0_0_1_n_n.rhsNonContracting by decide)]
  rfl

/-- The strip's rows times all rows, read at (p, q): the inner product of row `off + p` with row `q`. -/
theorem gram_at (off : ℕ) (h1 : S1024x256.Slices ![off, 0] S128x256) (p : Fin 128) (q : Fin 1024) (r : Fin 1024) (hr : r.val = off + p.val) :
    matmul dot_S128x256_S256x1024_S128x1024_1_0_0_1_n_n none (extractStridedSlice S128x256 ![off, 0] (k0_pay3 x0) h1) (k0_pay4 x0) (constant S128x1024 .f32 0x00000000#32) (ix2 p q)
      = gram x0 r q := by
  refine (Cert.Lib.SplitContraction.matmul_zero_at dot_S128x256_S256x1024_S128x1024_1_0_0_1_n_n rfl rfl dot_l0 dot_l1 dot_r0 dot_r1 none _ (k0_pay4 x0) p q).trans ?_
  exact Finset.sum_congr rfl fun k _ => by rw [slice2_axis0_apply off (k0_pay3 x0) h1 p k r hr, pay3_at, pay4_at]

/-! ## The identity's strip -/

theorem eyeStrip_at (off : ℕ) (hoff : off + 128 ≤ 1024) (p : Fin 128) (q : Fin 1024) :
    eyeStrip (F := Ideal) (BitVec.ofNat 32 off) (ix2 p q) = eye (off + p.val) q.val := by
  unfold eyeStrip
  show FloatOps.sitofp (F := Ideal) .f32 ((IntOp.cmpi .eq (IntOp.addi (BitVec.ofNat 32 off) (iota .tc S128x1024 32 [0] iota_S128x1024_d0_w32 (ix2 p q))) (iota .tc S128x1024 32 [1] iota_S128x1024_d1_w32 (ix2 p q))).setWidth 32) = _
  rw [iota_single_apply, iota_single_apply]
  show Cert.Lib.OneHotSelect.hot (IntOp.addi (BitVec.ofNat 32 off) (BitVec.ofNat 32 p.val)) q.val = _
  rw [Cert.Lib.OneHotSelect.hot_eq _ _ (by have := q.isLt; omega)]
  have e : (IntOp.addi (BitVec.ofNat 32 off) (BitVec.ofNat 32 p.val)).toNat = off + p.val := by
    unfold IntOp.addi
    rw [BitVec.toNat_add, BitVec.toNat_ofNat, BitVec.toNat_ofNat]
    have := p.isLt; omega
  rw [e]; rfl

/-! ## A strip, entry by entry -/

/-- The clipped squared distances of the strip at (p, q). -/
theorem dist2_at (off : ℕ) (h1 : S1024x256.Slices ![off, 0] S128x256) (h2 : S1024x1.Slices ![off, 0] S128x1)
    (p : Fin 128) (q : Fin 1024) (r : Fin 1024) (hr : r.val = off + p.val) :
    dist2Strip off h1 h2 (k0_pay3 x0) (k0_pay4 x0) (k0_pay5 x0) (k0_pay6 x0) (ix2 p q)
      = max (sqn x0 r + sqn x0 q - two * gram x0 r q) 0 := by
  unfold dist2Strip
  show max (broadcastTo S128x1024 (extractStridedSlice S128x1 ![off, 0] (k0_pay5 x0) h2) broadcasts_S128x1_S128x1024 (ix2 p q)
        + broadcastTo S128x1024 (k0_pay6 x0) broadcasts_S1x1024_S128x1024 (ix2 p q)
        - two * matmul dot_S128x256_S256x1024_S128x1024_1_0_0_1_n_n none (extractStridedSlice S128x256 ![off, 0] (k0_pay3 x0) h1) (k0_pay4 x0) (constant S128x1024 .f32 0x00000000#32) (ix2 p q))
      (Ideal.ofBits .f32 0x00000000#32) = _
  rw [gram_at x0 off h1 p q r hr, broadcastTo_1b_ab_apply, pay6_at, Ideal.ofBits_zero_f32]
  rw [broadcastTo_apply (extractStridedSlice S128x1 ![off, 0] (k0_pay5 x0) h2) broadcasts_S128x1_S128x1024 (ix2 p q) (ix2 p (0 : Fin 1))
    (fun ax => match ax with | ⟨0, _⟩ => rfl | ⟨1, _⟩ => rfl)]
  rw [slice2_axis0_apply off (k0_pay5 x0) h2 p (0 : Fin 1) r hr, pay5_at]

/-- The strip's squared entry at (p, q), generic in the squared distances and the identity's strip. -/
theorem sqStrip_at (d2 e : FVec Ideal S128x1024 .f32) (s w : Vec Ideal S128x1024 .f32) (j : S128x1024.Idx) :
    sqStrip (kdStrip d2 e) (sStrip e s) w j
      = (w j * (Ideal.exp (negOne * Ideal.sqrt (d2 j + e j)) * (one - e j) - (s j - one * e j)))
        * (w j * (Ideal.exp (negOne * Ideal.sqrt (d2 j + e j)) * (one - e j) - (s j - one * e j))) := rfl

/-- The strip's squared entry at (p, q) is the specification's squared entry at row `off + p`. -/
theorem stripEntry_at (off : ℕ) (hoff : off + 128 ≤ 1024) (h1 : S1024x256.Slices ![off, 0] S128x256) (h2 : S1024x1.Slices ![off, 0] S128x1)
    (s w : Vec Ideal S128x1024 .f32) (S W : M2.Idx → EReal) (p : Fin 128) (q : Fin 1024)
    (hs : s (ix2 p q) = S (ix2 (stripRow off hoff p) q)) (hw : w (ix2 p q) = W (ix2 (stripRow off hoff p) q)) :
    sqStrip (kdStrip (dist2Strip off h1 h2 (k0_pay3 x0) (k0_pay4 x0) (k0_pay5 x0) (k0_pay6 x0)) (eyeStrip (BitVec.ofNat 32 off)))
        (sStrip (eyeStrip (BitVec.ofNat 32 off)) s) w (ix2 p q)
      = entry x0 S W (stripRow off hoff p) q * entry x0 S W (stripRow off hoff p) q := by
  rw [sqStrip_at, dist2_at x0 off h1 h2 p q (stripRow off hoff p) rfl, eyeStrip_at off hoff p q, hs, hw]
  rfl

/-! ## Totals -/

theorem lift_col {a : ℕ} (h : (⟨2, ![a, 1]⟩ : Shape).Reduces [0] (⟨1, ![1]⟩ : Shape)) (u : Fin 1)
    (d : Fin ((⟨2, ![a, 1]⟩ : Shape).size 0)) : h.lift (ix1 u) d = ix2 (⟨d.val, d.isLt⟩ : Fin a) u := by
  funext c; apply Fin.ext
  fin_cases c <;> rfl

/-- A block's total is the double sum of its entries. -/
theorem total_at (x : FVec Ideal S128x1024 .f32) :
    total x (ix2 (0 : Fin 1) (0 : Fin 1)) = ∑ p : Fin 128, ∑ q : Fin 1024, x (ix2 p q) := by
  unfold total
  refine (shapeCast_a_1a_apply _ shapeCasts_S1_S1x1 0 0).trans ?_
  refine (Ideal.multiReduction_add_single _ 0x00000000#32 reduces_S128x1_S1 (.inl rfl) rfl (ix1 0)).trans ?_
  refine Finset.sum_congr rfl fun p _ => ?_
  rw [lift_col]
  exact Cert.Lib.RowReduceColumn.rowSum_column_apply x reduces_S128x1024_S128 (.inl rfl) rfl shapeCasts_S128_S128x1 ⟨p.val, p.isLt⟩ 0

/-- A strip's total is the specification's row sums over the strip. -/
theorem stripTotal_at (off : ℕ) (hoff : off + 128 ≤ 1024) (h1 : S1024x256.Slices ![off, 0] S128x256) (h2 : S1024x1.Slices ![off, 0] S128x1)
    (s w : Vec Ideal S128x1024 .f32) (S W : M2.Idx → EReal)
    (hs : ∀ p q, s (ix2 p q) = S (ix2 (stripRow off hoff p) q)) (hw : ∀ p q, w (ix2 p q) = W (ix2 (stripRow off hoff p) q)) :
    stripTotal off (BitVec.ofNat 32 off) h1 h2 (k0_pay3 x0) (k0_pay4 x0) (k0_pay5 x0) (k0_pay6 x0) s w (ix2 (0 : Fin 1) (0 : Fin 1))
      = strip (rowSq x0 S W) off hoff := by
  unfold stripTotal
  rw [total_at]
  unfold strip rowSq
  exact Finset.sum_congr rfl fun p _ => Finset.sum_congr rfl fun q _ => stripEntry_at x0 off hoff h1 h2 s w S W p q (hs p q) (hw p q)

/-! ## The rows of a whole buffer -/

/-- Rows `off … off + 127` of a [1024, 1024] array, read at (p, q): the array at (off + p, q). -/
theorem ld_rows (X : Vec Ideal S1024x1024 .f32) (off : ℕ) (hoff : off + 128 ≤ 1024)
    (inb : ∀ a, (![off, 0] : Fin 2 → ℕ) a + S128x1024.size a ≤ S1024x1024.size a) (p : Fin 128) (q : Fin 1024) :
    View.ld X (Rect.unit (s := S1024x1024) ![off, 0] S128x1024.size inb) (ix2 p q) = X (ix2 (stripRow off hoff p) q) := by
  show X ((Rect.unit (s := S1024x1024) ![off, 0] S128x1024.size inb).emb (ix2 p q)) = _
  refine congrArg X (funext fun a => Fin.ext ?_)
  rw [Rect.emb_apply]
  match a with
  | ⟨0, _⟩ => show off + 1 * p.val = off + p.val; omega
  | ⟨1, _⟩ => show 0 + 1 * q.val = q.val; omega

/-! ## The stored block -/

variable (x1 x2 : Vec Ideal S1024x1024 .f32)

/-- The eight strips' totals folded from zero are the sum over all rows. -/
theorem sumSq_at : sumSq x0 x1 x2 (ix2 (0 : Fin 1) (0 : Fin 1)) = ∑ r : Fin 1024, rowSq x0 x1 x2 r := by
  unfold sumSq
  simp only [addf_apply]
  rw [stripTotal_at x0 0 (by omega) slices_S1024x256_o0_0_S128x256 slices_S1024x1_o0_0_S128x1 _ _ x1 x2 (fun p q => ld_rows x1 0 (by omega) _ p q) (fun p q => ld_rows x2 0 (by omega) _ p q)]
  rw [stripTotal_at x0 128 (by omega) slices_S1024x256_o128_0_S128x256 slices_S1024x1_o128_0_S128x1 _ _ x1 x2 (fun p q => ld_rows x1 128 (by omega) _ p q) (fun p q => ld_rows x2 128 (by omega) _ p q)]
  rw [stripTotal_at x0 256 (by omega) slices_S1024x256_o256_0_S128x256 slices_S1024x1_o256_0_S128x1 _ _ x1 x2 (fun p q => ld_rows x1 256 (by omega) _ p q) (fun p q => ld_rows x2 256 (by omega) _ p q)]
  rw [stripTotal_at x0 384 (by omega) slices_S1024x256_o384_0_S128x256 slices_S1024x1_o384_0_S128x1 _ _ x1 x2 (fun p q => ld_rows x1 384 (by omega) _ p q) (fun p q => ld_rows x2 384 (by omega) _ p q)]
  rw [stripTotal_at x0 512 (by omega) slices_S1024x256_o512_0_S128x256 slices_S1024x1_o512_0_S128x1 _ _ x1 x2 (fun p q => ld_rows x1 512 (by omega) _ p q) (fun p q => ld_rows x2 512 (by omega) _ p q)]
  rw [stripTotal_at x0 640 (by omega) slices_S1024x256_o640_0_S128x256 slices_S1024x1_o640_0_S128x1 _ _ x1 x2 (fun p q => ld_rows x1 640 (by omega) _ p q) (fun p q => ld_rows x2 640 (by omega) _ p q)]
  rw [stripTotal_at x0 768 (by omega) slices_S1024x256_o768_0_S128x256 slices_S1024x1_o768_0_S128x1 _ _ x1 x2 (fun p q => ld_rows x1 768 (by omega) _ p q) (fun p q => ld_rows x2 768 (by omega) _ p q)]
  rw [stripTotal_at x0 896 (by omega) slices_S1024x256_o896_0_S128x256 slices_S1024x1_o896_0_S128x1 _ _ x1 x2 (fun p q => ld_rows x1 896 (by omega) _ p q) (fun p q => ld_rows x2 896 (by omega) _ p q)]
  rw [show k0_pay7 (F := Ideal) (ix2 (0 : Fin 1) (0 : Fin 1)) = 0 from Ideal.ofBits_zero_f32]
  exact Cert.RbfLoss.sum_strips (rowSq x0 x1 x2)

/-- Every entry of the stored block is the block's numerator. -/
theorem numerBody_at (j : S1x8x128.Idx) : numerBody x0 x1 x2 j = numerBlk x0 x1 x2 := by
  obtain ⟨u, i, k, rfl⟩ : ∃ (u : Fin 1) (i : Fin 8) (k : Fin 128), j = ix3 u i k := ⟨j 0, j 1, j 2, eq_ix3 j⟩
  unfold numerBody
  rw [shapeCast_ab_1ab_apply]
  rw [broadcastTo_apply (shapeCast S1x1 (sqrt (sumSq x0 x1 x2)) shapeCasts_S1x1_S1x1) broadcasts_S1x1_S8x128 (ix2 i k) (ix2 (0 : Fin 1) (0 : Fin 1))
    (fun ax => match ax with | ⟨0, _⟩ => rfl | ⟨1, _⟩ => rfl)]
  rw [shapeCast_self]
  show Ideal.sqrt (sumSq x0 x1 x2 (ix2 (0 : Fin 1) (0 : Fin 1))) = _
  rw [sumSq_at]
  rfl

end Cert.KernelIdeal.Hand

end
-- ==== Proof.DenomValue.lean ====
/-
  The second kernel region's values. What each case of the body leaves, as the body's operations of the point's strip of W
  and of what the scratch held (structural, any float instance): the first point leaves the strip's sum of squares of
  W - I added onto zero, every later point adds its strip's onto what the point before left, and the last point stores
  the square root of the scratch in every entry of the output block. Over the extended reals the scratch after point n is
  therefore the sum of the first n + 1 strips of the row sums of (W - I)², and after the last point the sum over all rows.
-/
import proofs.«154336_j22299470201233_1_alg».proof.Proof.FrameDenomIdeal
import proofs.«154336_j22299470201233_1_alg».proof.Proof.StripValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Cert.RbfLoss (eye drowSq M2)

section Structural
variable {F : FTy → Type} [FloatOps F]

theorem zero2 : (![0, 0] : Fin 2 → Nat) = fun _ => 0 := funext fun a => by fin_cases a <;> rfl

/-- The strip's sum of squares of W - I added onto the scratch's contents. -/
def addStrip (i : grid1.Coords) (w : Vec F S128x1024 .f32) (acc : Vec F S1x1 .f32) : FVec F S1x1 .f32 :=
  shapeCast S1x1 (addf acc (total (mulf (subf w (eyeStrip (Scalar.muli (BitVec.ofNat 32 (i 0).val) 128#32)))
    (subf w (eyeStrip (Scalar.muli (BitVec.ofNat 32 (i 0).val) 128#32)))))) shapeCasts_S1x1_S1x1

theorem pay2_eq (i : grid1.Coords) (w : Vec F S128x1024 .f32) (acc : Vec F S1x1 .f32) : k1_pay2 i w acc = addStrip i w acc := rfl

theorem sout1_A_0_eq (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : cond1_0 i) (hc1 : ¬cond1_1 i)
    (x0 : Vec F S128x1024 .f32) :
    sout1_A_0 c i arg1 harg1 arg2 harg2 arg3 harg3 hc0 hc1 x0 = addStrip i x0 k1_pay1 := by
  unfold sout1_A_0
  rw [View.read_writes_eq_canon _ _ _ (scover1_A_0 c i arg1 harg1 arg2 harg2 arg3 harg3 hc0 hc1 x0)]
  unfold kernelRun1_A
  dsimp only
  sl_unfold_words
  rw [View.canon_cons_unit_zero (S := S1x1) zero2]
  rw [View.readCov_unit_zero (S := S1x1) _ zero2]
  simp only [View.readAt_eq_ld, harg1.read_unread]
  simp only [View.ld_unit_zero (S := S128x1024) zero2]
  rfl

theorem sout1_B_0_eq (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : ¬cond1_1 i)
    (x0 : Vec F S128x1024 .f32) (xs0 : Vec F S1x1 .f32) :
    sout1_B_0 c i arg1 harg1 arg2 harg2 arg3 harg3 hc0 hc1 x0 xs0 = addStrip i x0 xs0 := by
  unfold sout1_B_0
  rw [View.read_writes_eq_canon _ _ _ (scover1_B_0 c i arg1 harg1 arg2 harg2 arg3 harg3 hc0 hc1 x0 xs0)]
  unfold kernelRun1_B
  dsimp only
  sl_unfold_words
  rw [View.canon_unit_zero (S := S1x1) zero2]
  simp only [View.readAt_eq_ld, harg1.read_unread, harg3.read_unread]
  simp only [View.ld_unit_zero (S := S128x1024) zero2, View.ld_unit_zero (S := S1x1) zero2]
  rfl

theorem sout1_C_0_eq (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) :
    sout1_C_0 c i arg1 harg1 arg2 harg2 arg3 harg3 hc0 hc1 x0 xs0 = addStrip i x0 xs0 := by
  unfold sout1_C_0
  rw [View.read_writes_eq_canon _ _ _ (scover1_C_0 c i arg1 harg1 arg2 harg2 arg3 harg3 hc0 hc1 x0 xs0)]
  unfold kernelRun1_C
  dsimp only
  sl_unfold_words
  rw [View.canon_unit_zero (S := S1x1) zero2]
  simp only [View.readAt_eq_ld, harg1.read_unread, harg3.read_unread]
  simp only [View.ld_unit_zero (S := S128x1024) zero2, View.ld_unit_zero (S := S1x1) zero2]
  rfl

theorem out1_C_1_eq (c : Dev nD) (i : grid1.Coords) (arg1 : Memref sig .tc .vmem S128x1024 .f32) (harg1 : arg1.IsWhole) (arg2 : Memref sig .tc .vmem S8x128 .f32) (harg2 : arg2.IsWhole) (arg3 : Memref sig .tc .vmem S1x1 .f32) (harg3 : arg3.IsWhole) (hc0 : ¬cond1_0 i) (hc1 : cond1_1 i)
    (x0 : Vec F S128x1024 .f32) (xs0 : Vec F S1x1 .f32) :
    out1_C_1 c i arg1 harg1 arg2 harg2 arg3 harg3 hc0 hc1 x0 xs0 = k1_pay3 (addStrip i x0 xs0) := by
  unfold out1_C_1
  rw [View.read_writes_eq_canon _ _ _ (cover1_C_1 c i arg1 harg1 arg2 harg2 arg3 harg3 hc0 hc1 x0 xs0)]
  unfold kernelRun1_C
  dsimp only
  sl_unfold_words
  rw [View.canon_unit_zero (S := S8x128) zero2]
  rw [View.readCov_unit_zero (S := S1x1) _ zero2]
  simp only [View.readAt_eq_ld, harg1.read_unread, harg3.read_unread]
  simp only [View.ld_unit_zero (S := S128x1024) zero2, View.ld_unit_zero (S := S1x1) zero2]
  rfl

end Structural

/-! ## Over the extended reals -/

/-- The grid coordinate of a point is its position. -/
theorem coord1 : ∀ t : Fin cfg1.N, (grid1.coords t 0).val = t.val :=
  (by decide +kernel : ∀ t : Fin grid1.N, (grid1.coords t 0).val = t.val)

/-- The sum over strip `k` of 128 rows. -/
def stripK (f : Fin 1024 → EReal) (k : ℕ) (hk : k < 8) : EReal :=
  ∑ p : Fin 128, f ⟨k * 128 + p.val, by have := p.isLt; omega⟩

theorem denomPay1_at : k1_pay1 (F := Ideal) (ix2 (0 : Fin 1) (0 : Fin 1)) = 0 := by
  unfold k1_pay1
  rw [shapeCast_self]
  exact Ideal.ofBits_zero_f32

/-- A point's strip added onto the scratch: the scratch plus the strip's row sums of (W - I)², when the point's block is
    rows `128 k …` of W. -/
theorem addStrip_at (i : grid1.Coords) (k : ℕ) (hk : k < 8) (hi : (i 0).val = k) (w : Vec Ideal S128x1024 .f32) (acc : Vec Ideal S1x1 .f32)
    (W : M2.Idx → EReal) (hw : ∀ (p : Fin 128) (q : Fin 1024), w (ix2 p q) = W (ix2 ⟨k * 128 + p.val, by have := p.isLt; omega⟩ q)) :
    addStrip i w acc (ix2 (0 : Fin 1) (0 : Fin 1)) = acc (ix2 (0 : Fin 1) (0 : Fin 1)) + stripK (drowSq W) k hk := by
  unfold addStrip
  rw [shapeCast_self, addf_apply, total_at]
  have ho : Scalar.muli (BitVec.ofNat 32 (i 0).val) 128#32 = BitVec.ofNat 32 (k * 128) := by
    rw [hi]; exact (BitVec.ofNat_mul k 128).symm
  rw [ho]
  unfold stripK drowSq
  refine congrArg (_ + ·) (Finset.sum_congr rfl fun p _ => Finset.sum_congr rfl fun q _ => ?_)
  rw [mulf_apply, subf_apply, eyeStrip_at (k * 128) (by omega) p q, hw p q]

theorem denomPay3_at (v : Vec Ideal S1x1 .f32) (j : S8x128.Idx) : k1_pay3 v j = Ideal.sqrt (v (ix2 (0 : Fin 1) (0 : Fin 1))) := by
  obtain ⟨a, b, rfl⟩ : ∃ (a : Fin 8) (b : Fin 128), j = ix2 a b := ⟨j 0, j 1, eq_ix2 j⟩
  unfold k1_pay3
  refine (broadcastTo_apply _ broadcasts_S1x1_S8x128 (ix2 a b) (ix2 (0 : Fin 1) (0 : Fin 1))
    (fun ax => match ax with | ⟨0, _⟩ => rfl | ⟨1, _⟩ => rfl)).trans ?_
  rw [shapeCast_self]
  rfl

/-! ## The accumulation over the points -/

section Acc
variable (V : (c : Dev nD) → (b : Ref sig .tc) → Buf (Elt Ideal) ((c : Thread nD τ).loc b))

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The input window's block at point t is rows `128 t …` of W. -/
theorem iblk1_at (c : Dev nD) (t : Fin cfg1.N) (ht : t.val < 8) (p : Fin 128) (q : Fin 1024) :
    iblk1 V c 0 t (ix2 p q) = V c main_arg2 (ix2 ⟨t.val * 128 + p.val, by have := p.isLt; omega⟩ q) := by
  obtain ⟨e0, e1⟩ := idx1_0 t
  show V c main_arg2 (((cfg1.win 0).blk t).view.emb (ix2 p q)) = _
  refine congrArg (V c main_arg2) (funext fun a => Fin.ext ?_)
  match a with
  | ⟨0, _⟩ => show win1_0.index t (0 : Fin 2) * 128 + 1 * p.val = t.val * 128 + p.val; rw [e0]; omega
  | ⟨1, _⟩ => show win1_0.index t (1 : Fin 2) * 1024 + 1 * q.val = q.val; rw [e1]; omega

/-- After point n the scratch holds the sum of the first n + 1 strips. -/
theorem acc_at (c : Dev nD) : ∀ (n : ℕ) (hn : n < cfg1.N) (h8 : n < 8),
    (outsAt1 V c n hn).2 (ix2 (0 : Fin 1) (0 : Fin 1))
      = ∑ k : Fin (n + 1), stripK (drowSq (V c main_arg2)) k.val (by have := k.isLt; omega)
  | 0, hn, h8 => by
    rw [show (outsAt1 V c 0 hn).2 = sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr rfl) (fun h => (fun h => by (try dsimp only at h); omega) ((hcond1_1 ⟨0, hn⟩).mp h)) (iblk1 V c 0 ⟨0, hn⟩) from rfl]
    rw [sout1_A_0_eq, addStrip_at (grid1.coords ⟨0, hn⟩) 0 (by omega) (coord1 ⟨0, hn⟩) _ _ (V c main_arg2)
      (fun p q => iblk1_at V c ⟨0, hn⟩ (by omega) p q), denomPay1_at, zero_add, Fin.sum_univ_one]
    rfl
  | n + 1, hn, h8 => by
    have ih := acc_at c n (Nat.lt_of_succ_lt hn) (by omega)
    have step : (outsAt1 V c (n + 1) hn).2 = addStrip (grid1.coords ⟨n + 1, hn⟩) (iblk1 V c 0 ⟨n + 1, hn⟩) (outsAt1 V c n (Nat.lt_of_succ_lt hn)).2 := by
      by_cases h1 : n + 1 = 7
      · have e := congrArg Prod.snd (outsAt1_C V c ⟨n + 1, hn⟩ (Nat.succ_ne_zero n) h1)
        dsimp only at e
        exact e.trans (sout1_C_0_eq (F := Ideal) ..)
      · have e := congrArg Prod.snd (outsAt1_B V c ⟨n + 1, hn⟩ (Nat.succ_ne_zero n) h1)
        dsimp only at e
        exact e.trans (sout1_B_0_eq (F := Ideal) ..)
    rw [step, addStrip_at (grid1.coords ⟨n + 1, hn⟩) (n + 1) h8 (coord1 ⟨n + 1, hn⟩) _ _ (V c main_arg2)
      (fun p q => iblk1_at V c ⟨n + 1, hn⟩ h8 p q), ih]
    refine Eq.symm ?_
    conv_lhs => rw [Fin.sum_univ_castSucc]
    rfl

/-- After the last point the scratch holds the sum over all rows. -/
theorem acc_last (c : Dev nD) (hn : 7 < cfg1.N) :
    (outsAt1 V c 7 hn).2 (ix2 (0 : Fin 1) (0 : Fin 1)) = ∑ r : Fin 1024, drowSq (V c main_arg2) r := by
  rw [acc_at V c 7 hn (by omega)]
  exact (Cert.Lib.SumRuns.sum_runs (M := EReal) 8 128 (fun r : Fin (8 * 128) => drowSq (V c main_arg2) r)).symm

/-- What the last point stores out: the denominator, in every entry. -/
theorem out_last (c : Dev nD) (hn : 7 < cfg1.N) (j : S8x128.Idx) :
    (outsAt1 V c 7 hn).1 j = Cert.RbfLoss.denom (V c main_arg2) := by
  have e := outsAt1_C V c ⟨7, hn⟩ (by show ¬(7 : ℕ) = 0; omega) rfl
  have e1 := congrArg Prod.fst e
  have e2 := congrArg Prod.snd e
  dsimp only at e1 e2
  have h1 := e1.trans (out1_C_1_eq (F := Ideal) ..)
  have h2 := e2.trans (sout1_C_0_eq (F := Ideal) ..)
  rw [h1, denomPay3_at, ← h2, acc_last V c hn]
  rfl

end Acc

end Cert.KernelIdeal.Hand

end
-- ==== Proof.KernelValue.lean ====
/-
  The kernel program's result over the extended reals is the specification's loss. A grid point of the first region sees
  one batch element's block of vectors and the whole of S and W, so it writes that element's numerator into every
  entry of its block of the result; the blocks tile the [64, 8, 128] array, which therefore holds numerator b throughout
  block b. The second region writes back once, after its last point, the denominator into every entry of its [8, 128]
  array. The host operations then take entry (b, 0, 0) of the first and entry (0, 0) of the second, and add up
  2 · numerator / denominator over the batch from zero.
-/
import proofs.«154336_j22299470201233_1_alg».proof.Proof.FrameRunIdeal
import proofs.«154336_j22299470201233_1_alg».proof.Proof.StripValue
import proofs.«154336_j22299470201233_1_alg».proof.Proof.DenomValue
import Idealize.ShloMosaic.Lib.StableHlo.Run
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.Sem
open Idealize.ShloMosaic.Pipeline (Dat)
open Cert.RbfLoss (two blockOf numerBlk numer denom loss)

section Regions
variable (V : (c : Dev nD) → (b : Ref sig .tc) → Buf (Elt Ideal) ((c : Thread nD τ).loc b))

/-! ## The first region's blocks -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- Point t's block of vectors is batch element t's. -/
theorem iblk0_0_eq (c : Dev nD) (t : Fin cfg0.N) (ht : t.val < 64) :
    (iblk0 V c 0 t : S1x1024x256.Idx → EReal) = blockOf (V c main_arg0) ⟨t.val, ht⟩ := by
  obtain ⟨e0, e1, e2⟩ := idx0_0 t
  funext y
  show V c main_arg0 (((cfg0.win 0).blk t).view.emb y) = V c main_arg0 _
  refine congrArg (V c main_arg0) (funext fun a => Fin.ext ?_)
  have h0 : (y 0).val < 1 := (y 0).isLt
  match a with
  | ⟨0, _⟩ => show win0_0.index t (0 : Fin 3) * 1 + 1 * (y 0).val = t.val; rw [e0]; omega
  | ⟨1, _⟩ => show win0_0.index t (1 : Fin 3) * 1024 + 1 * (y 1).val = (y 1).val; rw [e1]; omega
  | ⟨2, _⟩ => show win0_0.index t (2 : Fin 3) * 256 + 1 * (y 2).val = (y 2).val; rw [e2]; omega

/-- Every point sees the whole of S and of W. -/
theorem iblk0_1_eq (c : Dev nD) (t : Fin cfg0.N) : (iblk0 V c 1 t : S1024x1024.Idx → EReal) = V c main_arg1 := by
  obtain ⟨e0, e1⟩ := idx0_1 t
  funext y
  show V c main_arg1 (((cfg0.win 1).blk t).view.emb y) = V c main_arg1 y
  refine congrArg (V c main_arg1) (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem iblk0_2_eq (c : Dev nD) (t : Fin cfg0.N) : (iblk0 V c 2 t : S1024x1024.Idx → EReal) = V c main_arg2 := by
  obtain ⟨e0, e1⟩ := idx0_2 t
  funext y
  show V c main_arg2 (((cfg0.win 2).blk t).view.emb y) = V c main_arg2 y
  refine congrArg (V c main_arg2) (funext fun a => Fin.ext ?_)
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- What the first region's array ends holding: numerator b throughout block b. -/
def numerArr (c : Dev nD) : S64x8x128.Idx → EReal :=
  fun i => numer (V c main_arg0) (V c main_arg1) (V c main_arg2) ⟨(i 0).val, (i 0).isLt⟩

/-- Every point writes back its block of that array. -/
theorem flushed0 (c : Dev nD) (t : Fin cfg0.N) (hf : (cfg0.win 3).flush t = true) :
    (dat0 V c).flushed 3 t = ((cfg0.win 3).blk t).view.read (Elt Ideal) (numerArr V c) := by
  have ht : t.val < 64 := lt_of_lt_of_eq t.isLt N_0
  obtain ⟨e0, e1, e2⟩ := idx0_3 t
  funext y
  rw [View.read_apply]
  show (dat0 V c).after 3 t ((cfg0.win 3).xinj (grid0.coords t) y) = numerArr V c (((cfg0.win 3).blk t).view.emb y)
  rw [after0_3]
  unfold outAt0
  rw [out0_3_eq, numerBody_at, iblk0_0_eq V c t ht, iblk0_1_eq, iblk0_2_eq]
  unfold numerArr numer
  refine congrArg (fun b => numerBlk (blockOf (V c main_arg0) b) (V c main_arg1) (V c main_arg2)) (Fin.ext ?_)
  have h0 : (y 0).val < 1 := (y 0).isLt
  show t.val = win0_3.index t (0 : Fin 3) * 1 + 1 * (y 0).val
  rw [e0]; omega

theorem xsize0_3 : ∀ t : Fin cfg0.N, win0_3.xsize (grid0.coords t) (0 : Fin 3) = 1 ∧ win0_3.xsize (grid0.coords t) (1 : Fin 3) = 8 ∧ win0_3.xsize (grid0.coords t) (2 : Fin 3) = 128 :=
  (by decide +kernel : ∀ t : Fin grid0.N, win0_3.xsize (grid0.coords t) (0 : Fin 3) = 1 ∧ win0_3.xsize (grid0.coords t) (1 : Fin 3) = 8 ∧ win0_3.xsize (grid0.coords t) (2 : Fin 3) = 128)

/-- So the array ends holding it: block `i 0` covers index `i`. -/
theorem final0 (c : Dev nD) : (dat0 V c).arrAt 3 cfg0.N = numerArr V c :=
  (dat0 V c).arrAt_eq_of_cover 3 (numerArr V c) (flushed0 V c) fun i => by
    have h0 : (i 0 : Nat) < 64 := (i 0).isLt
    have h1 : (i 1 : Nat) < 8 := (i 1).isLt
    have h2 : (i 2 : Nat) < 128 := (i 2).isLt
    have hT : (i 0).val < cfg0.N := by rw [show cfg0.N = 64 from N_0]; exact h0
    refine ⟨⟨(i 0).val, hT⟩, flush0_3 _, ?_⟩
    obtain ⟨e0, e1, e2⟩ := idx0_3 ⟨(i 0).val, hT⟩
    have e0' : win0_3.index ⟨(i 0).val, hT⟩ (0 : Fin 3) = (i 0).val := e0
    obtain ⟨x0, x1, x2⟩ := xsize0_3 ⟨(i 0).val, hT⟩
    show i ∈ ((View.whole main_v0).slice (win0_3.rect ⟨(i 0).val, hT⟩)).set
    rw [View.set_slice_whole, Rect.mem_set_unit]
    intro a
    match a with
    | ⟨0, _⟩ => show win0_3.index ⟨(i 0).val, hT⟩ (0 : Fin 3) * 1 ≤ (i 0 : Nat) ∧ (i 0 : Nat) < win0_3.index ⟨(i 0).val, hT⟩ (0 : Fin 3) * 1 + win0_3.xsize (grid0.coords ⟨(i 0).val, hT⟩) (0 : Fin 3)
                rw [e0', x0]; omega
    | ⟨1, _⟩ => show win0_3.index ⟨(i 0).val, hT⟩ (1 : Fin 3) * 8 ≤ (i 1 : Nat) ∧ (i 1 : Nat) < win0_3.index ⟨(i 0).val, hT⟩ (1 : Fin 3) * 8 + win0_3.xsize (grid0.coords ⟨(i 0).val, hT⟩) (1 : Fin 3)
                rw [e1, x1]; omega
    | ⟨2, _⟩ => show win0_3.index ⟨(i 0).val, hT⟩ (2 : Fin 3) * 128 ≤ (i 2 : Nat) ∧ (i 2 : Nat) < win0_3.index ⟨(i 0).val, hT⟩ (2 : Fin 3) * 128 + win0_3.xsize (grid0.coords ⟨(i 0).val, hT⟩) (2 : Fin 3)
                rw [e2, x2]; omega

/-! ## The second region's one write-back -/

/-- What the second region's array ends holding: the denominator everywhere. -/
def denomArr (c : Dev nD) : S8x128.Idx → EReal := fun _ => denom (V c main_arg2)

theorem flushed1 (c : Dev nD) (t : Fin cfg1.N) (hf : (cfg1.win 1).flush t = true) :
    (dat1 V c).flushed 1 t = ((cfg1.win 1).blk t).view.read (Elt Ideal) (denomArr V c) := by
  have hN : cfg1.N = 8 := N_1
  have h7 : t.val = 7 := by have := (flush1_1 t).mp hf; have := t.isLt; omega
  obtain ⟨n, hn⟩ := t
  obtain rfl : n = 7 := h7
  funext y
  rw [View.read_apply]
  show (dat1 V c).after 1 ⟨7, hn⟩ ((cfg1.win 1).xinj (grid1.coords ⟨7, hn⟩) y) = denom (V c main_arg2)
  rw [after1_1]
  exact out_last V c hn _

theorem idx1_1 : ∀ t : Fin cfg1.N, win1_1.index t (0 : Fin 2) = 0 ∧ win1_1.index t (1 : Fin 2) = 0 ∧ win1_1.xsize (grid1.coords t) (0 : Fin 2) = 8 ∧ win1_1.xsize (grid1.coords t) (1 : Fin 2) = 128 :=
  (by decide +kernel : ∀ t : Fin grid1.N, win1_1.index t (0 : Fin 2) = 0 ∧ win1_1.index t (1 : Fin 2) = 0 ∧ win1_1.xsize (grid1.coords t) (0 : Fin 2) = 8 ∧ win1_1.xsize (grid1.coords t) (1 : Fin 2) = 128)

theorem final1 (c : Dev nD) : (dat1 V c).arrAt 1 cfg1.N = denomArr V c :=
  (dat1 V c).arrAt_eq_of_cover 1 (denomArr V c) (flushed1 V c) fun i => by
    have h0 : (i 0 : Nat) < 8 := (i 0).isLt
    have h1 : (i 1 : Nat) < 128 := (i 1).isLt
    refine ⟨t1_7, (flush1_1 t1_7).mpr rfl, ?_⟩
    obtain ⟨e0, e1, x0, x1⟩ := idx1_1 t1_7
    show i ∈ ((View.whole main_v1).slice (win1_1.rect t1_7)).set
    rw [View.set_slice_whole, Rect.mem_set_unit]
    intro a
    match a with
    | ⟨0, _⟩ => show win1_1.index t1_7 (0 : Fin 2) * 8 ≤ (i 0 : Nat) ∧ (i 0 : Nat) < win1_1.index t1_7 (0 : Fin 2) * 8 + win1_1.xsize (grid1.coords t1_7) (0 : Fin 2)
                rw [e0, x0]; omega
    | ⟨1, _⟩ => show win1_1.index t1_7 (1 : Fin 2) * 128 ≤ (i 1 : Nat) ∧ (i 1 : Nat) < win1_1.index t1_7 (1 : Fin 2) * 128 + win1_1.xsize (grid1.coords t1_7) (1 : Fin 2)
                rw [e1, x1]; omega

end Regions

/-! ## The host tail -/

/-- The host operations after the regions, as one function of the two regions' arrays. -/
def tailFn (A : S64x8x128.Idx → EReal) (B : S8x128.Idx → EReal) : S_.Idx → EReal :=
  Host.reduceAdd (F := Ideal)
    (Host.divf (F := Ideal)
      (mulf (broadcastInDim S64 ![] bcast_S_S64 (constant (F := Ideal) S_ .f32 0x40000000#32))
        (shapeCast S64 (extractStridedSlice S64x1x1 ![0, 0, 0] A slices_S64x8x128_S64x1x1_0_0_0) shapeCasts_S64x1x1_S64))
      (broadcastInDim S64 ![] bcast_S_S64
        (shapeCast S_ (extractStridedSlice S1x1 ![0, 0] B slices_S8x128_S1x1_0_0) shapeCasts_S1x1_S_)))
    (constant (F := Ideal) S_ .f32 0x00000000#32) reducesTo_S64_S_d0 h_S_

theorem takeA (A : S64x8x128.Idx → EReal) (b : Fin 64) :
    shapeCast S64 (extractStridedSlice S64x1x1 ![0, 0, 0] A slices_S64x8x128_S64x1x1_0_0_0) shapeCasts_S64x1x1_S64 (ix1 b)
      = A (ix3 b (0 : Fin 8) (0 : Fin 128)) := by
  refine (shapeCast_apply _ shapeCasts_S64x1x1_S64 (ix1 b) (ix3 b (0 : Fin 1) (0 : Fin 1)) (by
    rw [Shape.rowMajor_val_three, Shape.rowMajor_val_one]
    show (b.val * 1 + 0) * 1 + 0 = b.val
    omega)).trans ?_
  exact extractStridedSlice_apply _ A slices_S64x8x128_S64x1x1_0_0_0 _ (ix3 b (0 : Fin 8) (0 : Fin 128)) fun a => by
    match a with
    | ⟨0, _⟩ => exact (Nat.zero_add _).symm
    | ⟨1, _⟩ => exact (Nat.zero_add _).symm
    | ⟨2, _⟩ => exact (Nat.zero_add _).symm

theorem takeB (B : S8x128.Idx → EReal) (j : S_.Idx) :
    shapeCast S_ (extractStridedSlice S1x1 ![0, 0] B slices_S8x128_S1x1_0_0) shapeCasts_S1x1_S_ j
      = B (ix2 (0 : Fin 8) (0 : Fin 128)) := by
  refine (shapeCast_apply _ shapeCasts_S1x1_S_ j (ix2 (0 : Fin 1) (0 : Fin 1)) (by
    rw [Shape.rowMajor_val_two]
    have : (S_.rowMajor j).val < 1 := (S_.rowMajor j).isLt
    show 0 * 1 + 0 = (S_.rowMajor j).val
    omega)).trans ?_
  exact extractStridedSlice_apply _ B slices_S8x128_S1x1_0_0 _ (ix2 (0 : Fin 8) (0 : Fin 128)) fun a => by
    match a with
    | ⟨0, _⟩ => exact (Nat.zero_add _).symm
    | ⟨1, _⟩ => exact (Nat.zero_add _).symm

/-- The tail at its one index: 2 · A(b, 0, 0) / B(0, 0) summed over the batch. -/
theorem tail_at (A : S64x8x128.Idx → EReal) (B : S8x128.Idx → EReal) (j : S_.Idx) :
    tailFn A B j = ∑ b : Fin 64, Ideal.div (two * A (ix3 b (0 : Fin 8) (0 : Fin 128))) (B (ix2 (0 : Fin 8) (0 : Fin 128))) := by
  unfold tailFn
  generalize hx : Host.divf (F := Ideal)
      (mulf (broadcastInDim S64 ![] bcast_S_S64 (constant (F := Ideal) S_ .f32 0x40000000#32))
        (shapeCast S64 (extractStridedSlice S64x1x1 ![0, 0, 0] A slices_S64x8x128_S64x1x1_0_0_0) shapeCasts_S64x1x1_S64))
      (broadcastInDim S64 ![] bcast_S_S64
        (shapeCast S_ (extractStridedSlice S1x1 ![0, 0] B slices_S8x128_S1x1_0_0) shapeCasts_S1x1_S_)) = xv
  have hsum : Host.reduceAdd (F := Ideal) xv (constant (F := Ideal) S_ .f32 0x00000000#32) reducesTo_S64_S_d0 h_S_ j
      = Ideal.ofBits .f32 0x00000000#32 + ∑ i : S64.Idx, xv i := by
    simp only [Host.reduceAdd, Ideal.hostReduceAdd_def]
    exact Ideal.hostReduceAdd_total reducesTo_S64_S_d0 (fun b => b.elim0) xv _ j
  rw [hsum, Ideal.ofBits_zero_f32, zero_add, Cert.LibKeepdims.sum_idx1]
  refine Finset.sum_congr rfl fun b _ => ?_
  rw [← hx]
  show Ideal.div (Ideal.ofBits .f32 0x40000000#32 * shapeCast S64 (extractStridedSlice S64x1x1 ![0, 0, 0] A slices_S64x8x128_S64x1x1_0_0_0) shapeCasts_S64x1x1_S64 (ix1 b))
      (broadcastInDim S64 ![] bcast_S_S64 (shapeCast S_ (extractStridedSlice S1x1 ![0, 0] B slices_S8x128_S1x1_0_0) shapeCasts_S1x1_S_) (ix1 b)) = _
  rw [takeA, broadcastInDim_apply _ bcast_S_S64 _ (ix1 b) ix0 (fun a => a.elim0), takeB]
  rfl

/-! ## The program's result -/

variable (m : (ℓ : Loc nD τ sig) → Buf (Elt Ideal) ℓ) (ρ : Dev nD → PrngReg)

/-- The result buffer after the host operations is the tail of the two regions' arrays. -/
theorem v10_eq (c : Dev nD) :
    (W3 m ρ c (Proc.devRef .tc main_v10) : S_.Idx → EReal) = tailFn (W2 m ρ c (Proc.devRef .tc main_v0)) (W2 m ρ c (Proc.devRef .tc main_v1)) := by
  show StableHlo.after hostOps2 (W2 m ρ c) (Proc.devRef .tc main_v10) = _
  after_results
  rfl

/-- THE RESULT: the loss of the three arguments. -/
theorem result_eq (c : Dev nD) :
    (W3 m ρ c (Proc.devRef .tc main_v10) : S_.Idx → EReal)
      = fun _ => loss (m ((c : Thread nD τ).loc main_arg0)) (m ((c : Thread nD τ).loc main_arg1)) (m ((c : Thread nD τ).loc main_arg2)) := by
  have hA : (W2 m ρ c (Proc.devRef .tc main_v0) : S64x8x128.Idx → EReal) = numerArr (V0 m ρ) c :=
    (W2_of_ne m ρ c main_v0 (by decide)).trans ((W1_arr m ρ c 3).trans (final0 (V0 m ρ) c))
  have hB : (W2 m ρ c (Proc.devRef .tc main_v1) : S8x128.Idx → EReal) = denomArr (V1 m ρ) c :=
    (W2_arr m ρ c 1).trans (final1 (V1 m ρ) c)
  have hW : V1 m ρ c main_arg2 = m ((c : Thread nD τ).loc main_arg2) :=
    (W1_arr m ρ c 2).trans (((dat0 (V0 m ρ) c).arrAt_in 2 rfl _).trans (A_eq0 (V0 m ρ) c 2))
  rw [v10_eq, hA, hB]
  funext j
  rw [tail_at]
  unfold numerArr denomArr loss
  rw [hW]

end Cert.KernelIdeal.Hand

end
-- ==== Proof.RefValue.lean ====
/-
  The reference's result, stage by stage, is the specification's loss. Each broadcast, reshape and elementwise stage reads
  its operands at one index; the two compared iotas give the identity's entry; the sum over the vector axis gives a
  squared norm, the batched product a Gram entry; the sum over the two matrix axes of a batch element is the double sum
  over its rows and columns; the last sum runs over the batch. The float zeros the sums start from vanish.
-/
import proofs.«154336_j22299470201233_1_alg».proof.Proof.Gen.ReferenceIdeal.Read
import proofs.«154336_j22299470201233_1_alg».proof.Proof.LossSpec
import proofs.«154336_j22299470201233_1_alg».proof.Proof.LibKeepdimsColumn

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.RbfLoss (eye two negOne one blockOf sqn gram entry rowSq numerBlk numer drowSq denom loss)

variable (x0 : (⟨S64x1024x256, .f32⟩ : BufTy).Contents (Elt Ideal)) (x1 x2 : (⟨S1024x1024, .f32⟩ : BufTy).Contents (Elt Ideal))

/-! ## Indices -/

theorem i7 (b : Fin 64) (r : Fin 1024) (k : Fin 256) : idx_main_v7 (ix2 b r) k = ix3 b r k :=
  funext fun a => by match a with | ⟨0, _⟩ => rfl | ⟨1, _⟩ => rfl | ⟨2, _⟩ => rfl
theorem il8 (b : Fin 64) (r c : Fin 1024) (k : Fin 256) : lidx_main_v8 (ix3 b r c) k = ix3 b r k :=
  funext fun a => by match a with | ⟨0, _⟩ => rfl | ⟨1, _⟩ => rfl | ⟨2, _⟩ => rfl
theorem ir8 (b : Fin 64) (r c : Fin 1024) (k : Fin 256) : ridx_main_v8 (ix3 b r c) k = ix3 b c k :=
  funext fun a => by match a with | ⟨0, _⟩ => rfl | ⟨1, _⟩ => rfl | ⟨2, _⟩ => rfl
theorem i9_11 (b : Fin 64) (r c : Fin 1024) : idx_main_v9 (idx_main_v11 (ix3 b r c)) = ix2 b r :=
  funext fun a => by match a with | ⟨0, _⟩ => rfl | ⟨1, _⟩ => rfl
theorem i10_12 (b : Fin 64) (r c : Fin 1024) : idx_main_v10 (idx_main_v12 (ix3 b r c)) = ix2 b c :=
  funext fun a => by match a with | ⟨0, _⟩ => rfl | ⟨1, _⟩ => rfl
theorem i19_20 (b : Fin 64) (r c : Fin 1024) : idx_main_v19 (idx_main_v20 (ix3 b r c)) = ix2 r c :=
  funext fun a => by match a with | ⟨0, _⟩ => rfl | ⟨1, _⟩ => rfl
theorem i28_29 (b : Fin 64) (r c : Fin 1024) : idx_main_v28 (idx_main_v29 (ix3 b r c)) = ix2 r c :=
  funext fun a => by match a with | ⟨0, _⟩ => rfl | ⟨1, _⟩ => rfl
theorem i35_36 (b : Fin 64) (r c : Fin 1024) : idx_main_v35 (idx_main_v36 (ix3 b r c)) = ix2 r c :=
  funext fun a => by match a with | ⟨0, _⟩ => rfl | ⟨1, _⟩ => rfl
theorem i34_38 (b : Fin 64) (r c : Fin 1024) : idx_main_v34 (idx_main_v38 (ix3 b r c)) = ix2 r c :=
  funext fun a => by match a with | ⟨0, _⟩ => rfl | ⟨1, _⟩ => rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The stages -/

/-- The two compared iotas, converted: the identity's entry. -/
theorem eye_at (r c : Fin 1024) : val_main_v5 (F := Ideal) (ix2 r c) = eye r.val c.val := by
  rw [val_main_v5_apply, val_main_v4_apply, val_main_v3_apply, val_main_v2_apply]
  show (((IntOp.cmpi .eq (IntOp.addi (BitVec.ofNat 32 r.val) 0#32) (BitVec.ofNat 32 c.val)).toNat : ℝ) : EReal) = _
  unfold IntOp.addi IntOp.cmpi eye
  rw [BitVec.add_zero]
  by_cases h : r.val = c.val
  · rw [if_pos h, h, beq_self_eq_true]; simp
  · have hne : BitVec.ofNat 32 r.val ≠ BitVec.ofNat 32 c.val := fun e => h (by
      have := congrArg BitVec.toNat e
      rw [BitVec.toNat_ofNat, BitVec.toNat_ofNat] at this
      have h1 := r.isLt; have h2 := c.isLt; omega)
    rw [if_neg h, beq_false_of_ne hne]; simp

/-- The sum over the vector axis: a squared norm. -/
theorem sq_at (b : Fin 64) (r : Fin 1024) : val_main_v7 (F := Ideal) x0 (ix2 b r) = sqn (blockOf x0 b) r := by
  rw [val_main_v7_apply]
  show Ideal.ofBits .f32 0x00000000#32 + ∑ k : Fin 256, x0 (idx_main_v7 (ix2 b r) k) * x0 (idx_main_v7 (ix2 b r) k) = _
  rw [Ideal.ofBits_zero_f32, zero_add]
  exact Finset.sum_congr rfl fun k _ => by rw [i7]; rfl

/-- The batched product: a Gram entry. -/
theorem gram_at (b : Fin 64) (r c : Fin 1024) : val_main_v8 (F := Ideal) x0 (ix3 b r c) = gram (blockOf x0 b) r c := by
  rw [val_main_v8_apply]
  exact Finset.sum_congr rfl fun k _ => by rw [il8, ir8]; rfl

/-- One entry of W ∘ (kernel matrix with zeroed diagonal - (S - I)). -/
theorem entry_at (b : Fin 64) (r c : Fin 1024) : val_main_v39 (F := Ideal) x0 x1 x2 (ix3 b r c) = entry (blockOf x0 b) x1 x2 r c := by
  rw [val_main_v39_apply, val_main_v38_apply, val_main_v34_apply, val_main_v37_apply, val_main_v30_apply, val_main_v25_apply,
    val_main_v24_apply, val_main_v23_apply, val_main_v22_apply, val_main_v21_apply, val_main_v18_apply, val_main_v17_apply,
    val_main_v16_apply, val_main_v13_apply, val_main_v11_apply, val_main_v9_apply, val_main_v12_apply, val_main_v10_apply,
    val_main_v15_apply, val_main_v14_apply, val_main_v20_apply, val_main_v19_apply, val_main_v29_apply, val_main_v28_apply,
    val_main_v27_apply, val_main_v26_apply, val_main_v36_apply, val_main_v35_apply, val_main_v33_apply, val_main_v32_apply,
    val_main_v31_apply]
  rw [i9_11, i10_12, i19_20, i28_29, i35_36, i34_38]
  rw [sq_at, sq_at, gram_at, eye_at]
  rw [show val_main_cst_1 (F := Ideal) (idx_main_v17 (ix3 b r c)) = 0 from Ideal.ofBits_zero_f32]
  rfl

/-- The sum over the two matrix axes of a batch element: the double sum over rows and columns. -/
theorem v41_at (b : Fin 64) : val_main_v41 (F := Ideal) x0 x1 x2 (ix1 b) = ∑ r : Fin 1024, rowSq (blockOf x0 b) x1 x2 r := by
  have hdrop : ∀ (a : Fin 64) (r c : Fin 1024), reducesTo_S64x1024x1024_S64_d1_2.drop (ix3 a r c) = ix1 a := fun a r c =>
    funext fun e => Fin.ext (by
      match e with
      | ⟨0, _⟩ => exact reducesTo_S64x1024x1024_S64_d1_2.drop_apply_val_of_eq (ix3 a r c) 0 0)
  unfold val_main_v41
  generalize hy : val_main_v40 (F := Ideal) x0 x1 x2 = y0
  simp only [Host.reduceAdd, Ideal.hostReduceAdd_def]
  unfold Ideal.hostReduceAdd
  show Ideal.ofBits .f32 0x00000000#32 + _ = _
  rw [Ideal.ofBits_zero_f32, zero_add, Finset.sum_filter, sum_idx3, Finset.sum_eq_single b]
  · unfold rowSq
    refine Finset.sum_congr rfl fun r _ => Finset.sum_congr rfl fun c _ => ?_
    rw [if_pos (hdrop b r c), ← hy, val_main_v40_apply, entry_at]
    rfl
  · intro a _ ha
    refine Finset.sum_eq_zero fun r _ => Finset.sum_eq_zero fun c _ => if_neg fun e => ha ?_
    have := congrFun ((hdrop a r c).symm.trans e) 0
    exact this
  · intro h; exact absurd (Finset.mem_univ _) h

/-- The denominator's sum: the double sum of (W - I)². -/
theorem v45_at (i : S_.Idx) : val_main_v45 (F := Ideal) x2 i = ∑ r : Fin 1024, drowSq x2 r := by
  rw [val_main_v45_apply]
  show Ideal.ofBits .f32 0x00000000#32 + _ = _
  rw [Ideal.ofBits_zero_f32, zero_add, sum_idx2]
  unfold drowSq
  refine Finset.sum_congr rfl fun r _ => Finset.sum_congr rfl fun c _ => ?_
  rw [val_main_v44_apply, val_main_v43_apply, eye_at]
  rfl

/-- THE RESULT: the loss. -/
theorem result_at (i : S_.Idx) : val_main_v51 (F := Ideal) x0 x1 x2 i = loss x0 x1 x2 := by
  rw [val_main_v51_apply]
  show Ideal.ofBits .f32 0x00000000#32 + _ = _
  rw [Ideal.ofBits_zero_f32, zero_add, Cert.LibKeepdims.sum_idx1]
  unfold loss numer denom numerBlk
  refine Finset.sum_congr rfl fun b _ => ?_
  rw [val_main_v50_apply, val_main_v48_apply, val_main_v47_apply, val_main_v42_apply, val_main_v49_apply, val_main_v46_apply,
    v41_at, v45_at]
  rfl

end Cert.ReferenceIdeal.RefValue

end
-- ==== Proof.lean ====
/-
  The certificate: a two-region kernel program against its plain reference, for the loss
  sum over the batch of 2 · ‖W ∘ (K̃ - (S - I))‖ / ‖W - I‖, with K̃ the exponential kernel matrix of the batch element's
  vectors with its diagonal zeroed.
  The frames of the two kernel programs (the printed one at the word level, and its reading over the extended reals) are
  the run of the program as two kernel regions and a stretch of host operations; the reference's frame is its run with
  the result dropped. The ideal pass rewrote nothing, so the idealization's claim is the trivial one. The algebraic
  claim: the kernel program's result is the host tail of what the two regions leave, the reference's is its operations'
  term, and both are the one formula of the arguments; the only law between them is that a sum may be taken in strips.
-/
import proofs.«154336_j22299470201233_1_alg».proof.Defs
import proofs.«154336_j22299470201233_1_alg».proof.Proof.Gen.Kernel
import proofs.«154336_j22299470201233_1_alg».proof.Proof.Gen.KernelIdeal
import proofs.«154336_j22299470201233_1_alg».proof.Proof.Gen.ReferenceIdeal
import proofs.«154336_j22299470201233_1_alg».proof.Proof.Gen.ReferenceIdeal.Run
import proofs.«154336_j22299470201233_1_alg».proof.Proof.Gen.Pre_finite_inputs
import proofs.«154336_j22299470201233_1_alg».proof.Proof.FrameRunBits
import proofs.«154336_j22299470201233_1_alg».proof.Proof.FrameRunIdeal
import proofs.«154336_j22299470201233_1_alg».proof.Proof.Gen.ReferenceIdeal.Read
import proofs.«154336_j22299470201233_1_alg».proof.Proof.KernelValue
import proofs.«154336_j22299470201233_1_alg».proof.Proof.RefValue

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Both programs end with the loss of the three arguments: the kernel program's result is the host tail of the two
    regions' arrays, the reference's its operations' term, and memories agreeing on the arguments give one value. -/
theorem algebraic : Cert.algebraic_KernelIdeal_ReferenceIdeal := by
  intro m ρ m' ρ' _ hagree
  refine ⟨fun c => (fun _ => Cert.RbfLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))), ?_, ?_⟩
  · refine (θ_run Cert.KernelIdeal.defs _ _).mono (fun r h c => ⟨?_, ?_, ?_, ?_⟩) (Cert.KernelIdeal.Hand.run_main (F := Ideal) m ρ)
    · exact (h c _ (Cert.KernelIdeal.Hand.mem_uc Cert.KernelIdeal.main_v10 (by decide))).trans (Cert.KernelIdeal.Hand.result_eq m ρ c)
    · exact (h c _ (Cert.KernelIdeal.Hand.mem_uc Cert.KernelIdeal.main_arg0 (by decide))).trans (Cert.KernelIdeal.Hand.W3_main_arg0 m ρ c)
    · exact (h c _ (Cert.KernelIdeal.Hand.mem_uc Cert.KernelIdeal.main_arg1 (by decide))).trans (Cert.KernelIdeal.Hand.W3_main_arg1 m ρ c)
    · exact (h c _ (Cert.KernelIdeal.Hand.mem_uc Cert.KernelIdeal.main_arg2 (by decide))).trans (Cert.KernelIdeal.Hand.W3_main_arg2 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v51_eq, (hagree c).1, (hagree c).2.1, (hagree c).2.2]
    funext j
    exact Cert.ReferenceIdeal.RefValue.result_at _ _ _ j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
